-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048x2 : Shape := ⟨2, ![2048, 2]⟩
abbrev S8x1024x1024 : Shape := ⟨3, ![8, 1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x2 : S_.BroadcastsInDim S2048x2 (![] : Fin 0 → Fin S2048x2.rank)
  reducesTo_S2048x2_S_d0_1 : S2048x2.ReducesTo [0, 1] S_
  bcast_S_S8x1024x1024 : S_.BroadcastsInDim S8x1024x1024 (![] : Fin 0 → Fin S8x1024x1024.rank)
  reducesTo_S8x1024x1024_S_d0_1_2 : S8x1024x1024.ReducesTo [0, 1, 2] S_

variable [Facts]

def fn_part1 {F : FTy → Type} [FloatOps F] (main_arg2 : IVec S2048x2 32) (main_arg5 : FVec F S8x1024x1024 .f32) (main_v13 : IVec S_ 1) (main_v16 : IVec S8x1024x1024 1) : IVec S_ 1 :=
  let main_c_5 : IVec S_ 1 := constantI S_ 1 1#1
  let main_v17 : IVec S_ 1 := (fun x v => Host.reduce IntOp.andi x v reducesTo_S8x1024x1024_S_d0_1_2 h_S_) main_v16 main_c_5
  let main_v18 : IVec S_ 1 := andi main_v13 main_v17
  let main_v19 : FVec F S8x1024x1024 .f32 := Host.absf main_arg5
  let main_cst_6 : FVec F S_ .f32 := constant S_ .f32 0x7F800000#32
  let main_v20 : FVec F S8x1024x1024 .f32 := broadcastInDim S8x1024x1024 ![] bcast_S_S8x1024x1024 main_cst_6
  let main_v21 : IVec S8x1024x1024 1 := cmpf .olt main_v19 main_v20
  let main_c_7 : IVec S_ 1 := constantI S_ 1 1#1
  let main_v22 : IVec S_ 1 := (fun x v => Host.reduce IntOp.andi x v reducesTo_S8x1024x1024_S_d0_1_2 h_S_) main_v21 main_c_7
  let main_v23 : IVec S_ 1 := andi main_v18 main_v22
  let main_c_8 : IVec S_ 32 := constantI S_ 32 0#32
  let main_v24 : IVec S2048x2 32 := broadcastInDim S2048x2 ![] bcast_S_S2048x2 main_c_8
  let main_v25 : IVec S2048x2 1 := cmpi .sge main_arg2 main_v24
  let main_c_9 : IVec S_ 1 := constantI S_ 1 1#1
  let main_v26 : IVec S_ 1 := (fun x v => Host.reduce IntOp.andi x v reducesTo_S2048x2_S_d0_1 h_S_) main_v25 main_c_9
  let main_v27 : IVec S_ 1 := andi main_v23 main_v26
  main_v27

def fn {F : FTy → Type} [FloatOps F] (main_arg0 : FVec F S2048x1024 .f32) (main_arg1 : FVec F S2048x2 .f32) (main_arg2 : IVec S2048x2 32) (main_arg3 : FVec F S8x1024x1024 .f32) (main_arg4 : FVec F S8x1024x1024 .f32) (main_arg5 : FVec F S8x1024x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x2 .f32 := Host.absf main_arg1
  let main_cst_0 : FVec F S_ .f32 := constant S_ .f32 0x7F800000#32
  let main_v5 : FVec F S2048x2 .f32 := broadcastInDim S2048x2 ![] bcast_S_S2048x2 main_cst_0
  let main_v6 : IVec S2048x2 1 := cmpf .olt main_v4 main_v5
  let main_c_1 : IVec S_ 1 := constantI S_ 1 1#1
  let main_v7 : IVec S_ 1 := (fun x v => Host.reduce IntOp.andi x v reducesTo_S2048x2_S_d0_1 h_S_) main_v6 main_c_1
  let main_v8 : IVec S_ 1 := andi main_v3 main_v7
  let main_v9 : FVec F S8x1024x1024 .f32 := Host.absf main_arg3
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S8x1024x1024 .f32 := Host.absf main_arg4
  let main_cst_4 : FVec F S_ .f32 := constant S_ .f32 0x7F800000#32
  let main_v15 : FVec F S8x1024x1024 .f32 := broadcastInDim S8x1024x1024 ![] bcast_S_S8x1024x1024 main_cst_4
  let main_v16 : IVec S8x1024x1024 1 := cmpf .olt main_v14 main_v15
  fn_part1 (F := F) main_arg2 main_arg5 main_v13 main_v16
-- ==== Kernel.lean ====
abbrev S2048x1024 : Shape := ⟨2, ![2048, 1024]⟩
abbrev S2048x2 : Shape := ⟨2, ![2048, 2]⟩
abbrev S8x1024x1024 : Shape := ⟨3, ![8, 1024, 1024]⟩
abbrev S256x2 : Shape := ⟨2, ![256, 2]⟩
abbrev S256x1024 : Shape := ⟨2, ![256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x2, .f32⟩
  | .hbm, ⟨2, _⟩ => ⟨S2048x2, .i32⟩
  | .hbm, ⟨3, _⟩ => ⟨S8x1024x1024, .f32⟩
  | .hbm, ⟨4, _⟩ => ⟨S8x1024x1024, .f32⟩
  | .hbm, ⟨5, _⟩ => ⟨S8x1024x1024, .f32⟩
  | .hbm, ⟨6, _⟩ => ⟨S2048x1024, .f32⟩
  | .local _ .vmem, ⟨0, _⟩ => ⟨S256x2, .i32⟩
  | .local _ .vmem, ⟨1, _⟩ => ⟨S256x2, .i32⟩
  | .local _ .vmem, ⟨2, _⟩ => ⟨S256x2, .f32⟩
  | .local _ .vmem, ⟨3, _⟩ => ⟨S256x2, .f32⟩
  | .local _ .vmem, ⟨4, _⟩ => ⟨S256x1024, .f32⟩
  | .local _ .vmem, ⟨5, _⟩ => ⟨S256x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v36 : BitVec 1 := Scalar.cmpi .eq arg1 c0_i32
  let v37 : BitVec 32 := Scalar.extui v36
  let c0_i32_20 : BitVec 32 := 0#32
  let v38 : BitVec 1 := Scalar.cmpi .ne v37 c0_i32_20
  v38

def k0_cond2 (i : grid0.Coords) : BitVec 1 :=
  let arg1 : BitVec 32 := BitVec.ofNat 32 (i 1).val
  let c0_i32_21 : BitVec 32 := 0#32
  let v39 : BitVec 1 := Scalar.cmpi .ne arg1 c0_i32_21
  let v40 : BitVec 32 := Scalar.extui v39
  let c0_i32_22 : BitVec 32 := 0#32
  let v41 : BitVec 1 := Scalar.cmpi .ne v40 c0_i32_22
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S256x1024_S256x1024_0_0 : ∀ a, (![0, 0] : Fin 2 → Nat) a + S256x1024.size a ≤ S256x1024.size a
  h_S256x1024 : 0 < S256x1024.numel
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S256x2_S256x2_0_0 : ∀ a, (![0, 0] : Fin 2 → Nat) a + S256x2.size a ≤ S256x2.size a
  h_S256x2 : 0 < S256x2.numel
  reduces_S256x2_S256 : S256x2.Reduces [1] S256
  shapeCasts_S256_S256x1 : S256.ShapeCasts S256x1
  broadcasts_S256x1_S256x2 : S256x1.Broadcasts S256x2
  slices_S256x2_o0_0_S256x1 : S256x2.Slices ![0, 0] S256x1
  slices_S256x2_o0_1_S256x1 : S256x2.Slices ![0, 1] S256x1
  broadcasts_S256x1_S256x1024 : S256x1.Broadcasts S256x1024
  shapeCasts_S256x1024_S256x1024 : S256x1024.ShapeCasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2.size a ≤ S2048x2.size a
  hwx0_0 : ∀ i : grid0.Coords, EltTy.bits .i32 = 32 ∨ (Rect.block (s := S2048x2) S256x2.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S2048x2.size a
  hwx0_1 : ∀ i : grid0.Coords, EltTy.bits .f32 = 32 ∨ (Rect.block (s := S2048x2) S256x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x1024.size a
  hwx0_2 : ∀ i : grid0.Coords, EltTy.bits .f32 = 32 ∨ (Rect.block (s := S2048x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x1024x1024.size a
  hwx0_3 : ∀ i : grid0.Coords, EltTy.bits .f32 = 32 ∨ (Rect.block (s := S8x1024x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S8x1024x1024.size a
  hwx0_4 : ∀ i : grid0.Coords, EltTy.bits .f32 = 32 ∨ (Rect.block (s := S8x1024x1024) S1x1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x1024x1024.size a
  hwx0_5 : ∀ i : grid0.Coords, EltTy.bits .f32 = 32 ∨ (Rect.block (s := S8x1024x1024) S1x1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S2048x1024.size a
  hwx0_6 : ∀ i : grid0.Coords, EltTy.bits .f32 = 32 ∨ (Rect.block (s := S2048x1024) S256x1024.size (cc0_transform_6 i) (hinb0_6 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg2) S256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1024x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) && !(k0_cond2 i == 1#1) | ⟨_ + 7, h⟩ => absurd h (Nat.not_lt.2 (Nat.le_add_left _ _))

class Facts : Prop extends Facts₀ where

variable [Facts]
-- ==== ReferenceIdeal.lean ====
abbrev S2048x1024 : Shape := ⟨2, ![2048, 1024]⟩
abbrev S2048x2 : Shape := ⟨2, ![2048, 2]⟩
abbrev S8x1024x1024 : Shape := ⟨3, ![8, 1024, 1024]⟩
abbrev S_ : Shape := ⟨0, ![]⟩
abbrev S2048 : Shape := ⟨1, ![2048]⟩
abbrev S2048x1 : Shape := ⟨2, ![2048, 1]⟩
abbrev S2048x8 : Shape := ⟨2, ![2048, 8]⟩
abbrev S2048x2x1 : Shape := ⟨3, ![2048, 2, 1]⟩
abbrev S2048x2x2 : Shape := ⟨3, ![2048, 2, 2]⟩
abbrev S1x1024x1024 : Shape := ⟨3, ![1, 1024, 1024]⟩
abbrev S1024x1024 : Shape := ⟨2, ![1024, 1024]⟩

abbrev nBuf : Space → Nat
  | .hbm => 220
  | .vmem => 0
  | .smem => 0
  | _ => 0

abbrev hbmTy0_0 (i : Nat) : BufTy := match i % 128 with
  | 0 => ⟨S2048x1024, .f32⟩
  | 1 => ⟨S2048x2, .f32⟩
  | 2 => ⟨S2048x2, .i32⟩
  | 3 => ⟨S8x1024x1024, .f32⟩
  | 4 => ⟨S8x1024x1024, .f32⟩
  | 5 => ⟨S8x1024x1024, .f32⟩
  | 6 => ⟨S_, .f32⟩
  | 7 => ⟨S2048, .f32⟩
  | 8 => ⟨S2048x1, .f32⟩
  | 9 => ⟨S2048x2, .f32⟩
  | 10 => ⟨S2048x2, .f32⟩
  | 11 => ⟨S2048, .i32⟩
  | 12 => ⟨S2048x1, .i32⟩
  | 13 => ⟨S_, .f32⟩
  | 14 => ⟨S2048x8, .f32⟩
  | 15 => ⟨S_, .i32⟩
  | 16 => ⟨S2048x1, .i32⟩
  | 17 => ⟨S2048x1, .i1⟩
  | 18 => ⟨S_, .i32⟩
  | 19 => ⟨S2048x1, .i32⟩
  | 20 => ⟨S2048x1, .i32⟩
  | 21 => ⟨S2048x1, .i32⟩
  | 22 => ⟨S_, .i32⟩
  | 23 => ⟨S2048x2, .i32⟩
  | 24 => ⟨S2048x2, .i1⟩
  | 25 => ⟨S_, .i32⟩
  | 26 => ⟨S2048x2, .i32⟩
  | 27 => ⟨S2048x2, .i32⟩
  | 28 => ⟨S2048x2, .i32⟩
  | 29 => ⟨S2048x2, .i32⟩
  | 30 => ⟨S2048x2x1, .i32⟩
  | 31 => ⟨S2048x2x1, .i32⟩
  | 32 => ⟨S2048x2x2, .i32⟩
  | 33 => ⟨S2048x8, .f32⟩
  | 34 => ⟨S_, .f32⟩
  | 35 => ⟨S2048x1024, .f32⟩
  | 36 => ⟨S1x1024x1024, .f32⟩
  | 37 => ⟨S1024x1024, .f32⟩
  | 38 => ⟨S2048x1024, .f32⟩
  | 39 => ⟨S2048x1024, .f32⟩
  | 40 => ⟨S2048x1024, .f32⟩
  | 41 => ⟨S_, .f32⟩
  | 42 => ⟨S2048x1024, .f32⟩
  | 43 => ⟨S2048x1024, .f32⟩
  | 44 => ⟨S_, .f32⟩
  | 45 => ⟨S2048x1024, .f32⟩
  | 46 => ⟨S2048x1024, .f32⟩
  | 47 => ⟨S2048x1024, .f32⟩
  | 48 => ⟨S1x1024x1024, .f32⟩
  | 49 => ⟨S1024x1024, .f32⟩
  | 50 => ⟨S2048x1024, .f32⟩
  | 51 => ⟨S2048x1024, .f32⟩
  | 52 => ⟨S2048x1, .f32⟩
  | 53 => ⟨S1x1024x1024, .f32⟩
  | 54 => ⟨S1024x1024, .f32⟩
  | 55 => ⟨S2048x1024, .f32⟩
  | 56 => ⟨S2048x1024, .f32⟩
  | 57 => ⟨S2048x1024, .f32⟩
  | 58 => ⟨S2048x1024, .f32⟩
  | 59 => ⟨S1x1024x1024, .f32⟩
  | 60 => ⟨S1024x1024, .f32⟩
  | 61 => ⟨S2048x1024, .f32⟩
  | 62 => ⟨S2048x1024, .f32⟩
  | 63 => ⟨S2048x1024, .f32⟩
  | 64 => ⟨S_, .f32⟩
  | 65 => ⟨S2048x1024, .f32⟩
  | 66 => ⟨S2048x1024, .f32⟩
  | 67 => ⟨S_, .f32⟩
  | 68 => ⟨S2048x1024, .f32⟩
  | 69 => ⟨S2048x1024, .f32⟩
  | 70 => ⟨S2048x1024, .f32⟩
  | 71 => ⟨S1x1024x1024, .f32⟩
  | 72 => ⟨S1024x1024, .f32⟩
  | 73 => ⟨S2048x1024, .f32⟩
  | 74 => ⟨S2048x1024, .f32⟩
  | 75 => ⟨S2048x1, .f32⟩
  | 76 => ⟨S1x1024x1024, .f32⟩
  | 77 => ⟨S1024x1024, .f32⟩
  | 78 => ⟨S2048x1024, .f32⟩
  | 79 => ⟨S2048x1024, .f32⟩
  | 80 => ⟨S2048x1024, .f32⟩
  | 81 => ⟨S2048x1024, .f32⟩
  | 82 => ⟨S1x1024x1024, .f32⟩
  | 83 => ⟨S1024x1024, .f32⟩
  | 84 => ⟨S2048x1024, .f32⟩
  | 85 => ⟨S2048x1024, .f32⟩
  | 86 => ⟨S2048x1024, .f32⟩
  | 87 => ⟨S_, .f32⟩
  | 88 => ⟨S2048x1024, .f32⟩
  | 89 => ⟨S2048x1024, .f32⟩
  | 90 => ⟨S_, .f32⟩
  | 91 => ⟨S2048x1024, .f32⟩
  | 92 => ⟨S2048x1024, .f32⟩
  | 93 => ⟨S2048x1024, .f32⟩
  | 94 => ⟨S1x1024x1024, .f32⟩
  | 95 => ⟨S1024x1024, .f32⟩
  | 96 => ⟨S2048x1024, .f32⟩
  | 97 => ⟨S2048x1024, .f32⟩
  | 98 => ⟨S2048x1, .f32⟩
  | 99 => ⟨S1x1024x1024, .f32⟩
  | 100 => ⟨S1024x1024, .f32⟩
  | 101 => ⟨S2048x1024, .f32⟩
  | 102 => ⟨S2048x1024, .f32⟩
  | 103 => ⟨S2048x1024, .f32⟩
  | 104 => ⟨S2048x1024, .f32⟩
  | 105 => ⟨S1x1024x1024, .f32⟩
  | 106 => ⟨S1024x1024, .f32⟩
  | 107 => ⟨S2048x1024, .f32⟩
  | 108 => ⟨S2048x1024, .f32⟩
  | 109 => ⟨S2048x1024, .f32⟩
  | 110 => ⟨S_, .f32⟩
  | 111 => ⟨S2048x1024, .f32⟩
  | 112 => ⟨S2048x1024, .f32⟩
  | 113 => ⟨S_, .f32⟩
  | 114 => ⟨S2048x1024, .f32⟩
  | 115 => ⟨S2048x1024, .f32⟩
  | 116 => ⟨S2048x1024, .f32⟩
  | 117 => ⟨S1x1024x1024, .f32⟩
  | 118 => ⟨S1024x1024, .f32⟩
  | 119 => ⟨S2048x1024, .f32⟩
  | 120 => ⟨S2048x1024, .f32⟩
  | 121 => ⟨S2048x1, .f32⟩
  | 122 => ⟨S1x1024x1024, .f32⟩
  | 123 => ⟨S1024x1024, .f32⟩
  | 124 => ⟨S2048x1024, .f32⟩
  | 125 => ⟨S2048x1024, .f32⟩
  | 126 => ⟨S2048x1024, .f32⟩
  | 127 => ⟨S2048x1024, .f32⟩
  | _ => ⟨S2048x1024, .f32⟩

abbrev hbmTy0_1 (i : Nat) : BufTy := match i % 128 with
  | 0 => ⟨S1x1024x1024, .f32⟩
  | 1 => ⟨S1024x1024, .f32⟩
  | 2 => ⟨S2048x1024, .f32⟩
  | 3 => ⟨S2048x1024, .f32⟩
  | 4 => ⟨S2048x1024, .f32⟩
  | 5 => ⟨S_, .f32⟩
  | 6 => ⟨S2048x1024, .f32⟩
  | 7 => ⟨S2048x1024, .f32⟩
  | 8 => ⟨S_, .f32⟩
  | 9 => ⟨S2048x1024, .f32⟩
  | 10 => ⟨S2048x1024, .f32⟩
  | 11 => ⟨S2048x1024, .f32⟩
  | 12 => ⟨S1x1024x1024, .f32⟩
  | 13 => ⟨S1024x1024, .f32⟩
  | 14 => ⟨S2048x1024, .f32⟩
  | 15 => ⟨S2048x1024, .f32⟩
  | 16 => ⟨S2048x1, .f32⟩
  | 17 => ⟨S1x1024x1024, .f32⟩
  | 18 => ⟨S1024x1024, .f32⟩
  | 19 => ⟨S2048x1024, .f32⟩
  | 20 => ⟨S2048x1024, .f32⟩
  | 21 => ⟨S2048x1024, .f32⟩
  | 22 => ⟨S2048x1024, .f32⟩
  | 23 => ⟨S1x1024x1024, .f32⟩
  | 24 => ⟨S1024x1024, .f32⟩
  | 25 => ⟨S2048x1024, .f32⟩
  | 26 => ⟨S2048x1024, .f32⟩
  | 27 => ⟨S2048x1024, .f32⟩
  | 28 => ⟨S_, .f32⟩
  | 29 => ⟨S2048x1024, .f32⟩
  | 30 => ⟨S2048x1024, .f32⟩
  | 31 => ⟨S_, .f32⟩
  | 32 => ⟨S2048x1024, .f32⟩
  | 33 => ⟨S2048x1024, .f32⟩
  | 34 => ⟨S2048x1024, .f32⟩
  | 35 => ⟨S1x1024x1024, .f32⟩
  | 36 => ⟨S1024x1024, .f32⟩
  | 37 => ⟨S2048x1024, .f32⟩
  | 38 => ⟨S2048x1024, .f32⟩
  | 39 => ⟨S2048x1, .f32⟩
  | 40 => ⟨S1x1024x1024, .f32⟩
  | 41 => ⟨S1024x1024, .f32⟩
  | 42 => ⟨S2048x1024, .f32⟩
  | 43 => ⟨S2048x1024, .f32⟩
  | 44 => ⟨S2048x1024, .f32⟩
  | 45 => ⟨S2048x1024, .f32⟩
  | 46 => ⟨S1x1024x1024, .f32⟩
  | 47 => ⟨S1024x1024, .f32⟩
  | 48 => ⟨S2048x1024, .f32⟩
  | 49 => ⟨S2048x1024, .f32⟩
  | 50 => ⟨S2048x1024, .f32⟩
  | 51 => ⟨S_, .f32⟩
  | 52 => ⟨S2048x1024, .f32⟩
  | 53 => ⟨S2048x1024, .f32⟩
  | 54 => ⟨S_, .f32⟩
  | 55 => ⟨S2048x1024, .f32⟩
  | 56 => ⟨S2048x1024, .f32⟩
  | 57 => ⟨S2048x1024, .f32⟩
  | 58 => ⟨S1x1024x1024, .f32⟩
  | 59 => ⟨S1024x1024, .f32⟩
  | 60 => ⟨S2048x1024, .f32⟩
  | 61 => ⟨S2048x1024, .f32⟩
  | 62 => ⟨S2048x1, .f32⟩
  | 63 => ⟨S1x1024x1024, .f32⟩
  | 64 => ⟨S1024x1024, .f32⟩
  | 65 => ⟨S2048x1024, .f32⟩
  | 66 => ⟨S2048x1024, .f32⟩
  | 67 => ⟨S2048x1024, .f32⟩
  | 68 => ⟨S2048x1024, .f32⟩
  | 69 => ⟨S1x1024x1024, .f32⟩
  | 70 => ⟨S1024x1024, .f32⟩
  | 71 => ⟨S2048x1024, .f32⟩
  | 72 => ⟨S2048x1024, .f32⟩
  | 73 => ⟨S2048x1024, .f32⟩
  | 74 => ⟨S_, .f32⟩
  | 75 => ⟨S2048x1024, .f32⟩
  | 76 => ⟨S2048x1024, .f32⟩
  | 77 => ⟨S_, .f32⟩
  | 78 => ⟨S2048x1024, .f32⟩
  | 79 => ⟨S2048x1024, .f32⟩
  | 80 => ⟨S2048x1024, .f32⟩
  | 81 => ⟨S1x1024x1024, .f32⟩
  | 82 => ⟨S1024x1024, .f32⟩
  | 83 => ⟨S2048x1024, .f32⟩
  | 84 => ⟨S2048x1024, .f32⟩
  | 85 => ⟨S2048x1, .f32⟩
  | 86 => ⟨S1x1024x1024, .f32⟩
  | 87 => ⟨S1024x1024, .f32⟩
  | 88 => ⟨S2048x1024, .f32⟩
  | 89 => ⟨S2048x1024, .f32⟩
  | 90 => ⟨S2048x1024, .f32⟩
  | 91 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_call3_v0 : Ref sig .tc := ⟨.hbm, 108, rfl⟩
abbrev main_call3_v1 : Ref sig .tc := ⟨.hbm, 109, rfl⟩
abbrev main_call3_cst : Ref sig .tc := ⟨.hbm, 110, rfl⟩
abbrev main_call3_v2 : Ref sig .tc := ⟨.hbm, 111, rfl⟩
abbrev main_call3_v3 : Ref sig .tc := ⟨.hbm, 112, rfl⟩
abbrev main_call3_cst_0 : Ref sig .tc := ⟨.hbm, 113, rfl⟩
abbrev main_call3_v4 : Ref sig .tc := ⟨.hbm, 114, rfl⟩
abbrev main_call3_v5 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_call4_v0 : Ref sig .tc := ⟨.hbm, 131, rfl⟩
abbrev main_call4_v1 : Ref sig .tc := ⟨.hbm, 132, rfl⟩
abbrev main_call4_cst : Ref sig .tc := ⟨.hbm, 133, rfl⟩
abbrev main_call4_v2 : Ref sig .tc := ⟨.hbm, 134, rfl⟩
abbrev main_call4_v3 : Ref sig .tc := ⟨.hbm, 135, rfl⟩
abbrev main_call4_cst_0 : Ref sig .tc := ⟨.hbm, 136, rfl⟩
abbrev main_call4_v4 : Ref sig .tc := ⟨.hbm, 137, rfl⟩
abbrev main_call4_v5 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_call5_v0 : Ref sig .tc := ⟨.hbm, 154, rfl⟩
abbrev main_call5_v1 : Ref sig .tc := ⟨.hbm, 155, rfl⟩
abbrev main_call5_cst : Ref sig .tc := ⟨.hbm, 156, rfl⟩
abbrev main_call5_v2 : Ref sig .tc := ⟨.hbm, 157, rfl⟩
abbrev main_call5_v3 : Ref sig .tc := ⟨.hbm, 158, rfl⟩
abbrev main_call5_cst_0 : Ref sig .tc := ⟨.hbm, 159, rfl⟩
abbrev main_call5_v4 : Ref sig .tc := ⟨.hbm, 160, rfl⟩
abbrev main_call5_v5 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_call6_v0 : Ref sig .tc := ⟨.hbm, 177, rfl⟩
abbrev main_call6_v1 : Ref sig .tc := ⟨.hbm, 178, rfl⟩
abbrev main_call6_cst : Ref sig .tc := ⟨.hbm, 179, rfl⟩
abbrev main_call6_v2 : Ref sig .tc := ⟨.hbm, 180, rfl⟩
abbrev main_call6_v3 : Ref sig .tc := ⟨.hbm, 181, rfl⟩
abbrev main_call6_cst_0 : Ref sig .tc := ⟨.hbm, 182, rfl⟩
abbrev main_call6_v4 : Ref sig .tc := ⟨.hbm, 183, rfl⟩
abbrev main_call6_v5 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_call7_v0 : Ref sig .tc := ⟨.hbm, 200, rfl⟩
abbrev main_call7_v1 : Ref sig .tc := ⟨.hbm, 201, rfl⟩
abbrev main_call7_cst : Ref sig .tc := ⟨.hbm, 202, rfl⟩
abbrev main_call7_v2 : Ref sig .tc := ⟨.hbm, 203, rfl⟩
abbrev main_call7_v3 : Ref sig .tc := ⟨.hbm, 204, rfl⟩
abbrev main_call7_cst_0 : Ref sig .tc := ⟨.hbm, 205, rfl⟩
abbrev main_call7_v4 : Ref sig .tc := ⟨.hbm, 206, rfl⟩
abbrev main_call7_v5 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩

abbrev nD : Nat := 1
abbrev τ : Topo := Topo.v7x

variable {F : FTy → Type} [FloatOps F]

class Facts₀ : Prop where
  reducesTo_S2048x2_S2048_d1 : S2048x2.ReducesTo [1] S2048
  h_S_ : 0 < S_.numel
  bcast_S2048_S2048x1_0 : S2048.BroadcastsInDim S2048x1 (![0] : Fin 1 → Fin S2048x1.rank)
  bcast_S2048x1_S2048x2_0_1 : S2048x1.BroadcastsInDim S2048x2 (![0, 1] : Fin 2 → Fin S2048x2.rank)
  bcast_S_S2048x8 : S_.BroadcastsInDim S2048x8 (![] : Fin 0 → Fin S2048x8.rank)
  bcast_S_S2048x1 : S_.BroadcastsInDim S2048x1 (![] : Fin 0 → Fin S2048x1.rank)
  bcast_S_S2048x2 : S_.BroadcastsInDim S2048x2 (![] : Fin 0 → Fin S2048x2.rank)
  bcast_S2048x2_S2048x2x1_0_1 : S2048x2.BroadcastsInDim S2048x2x1 (![0, 1] : Fin 2 → Fin S2048x2x1.rank)
  concatenates_S2048x2x1_S2048x2x1_S2048x2x2_d2 : Shape.Concatenates [S2048x2x1, S2048x2x1] S2048x2x2 2
  bcast_S_S2048x1024 : S_.BroadcastsInDim S2048x1024 (![] : Fin 0 → Fin S2048x1024.rank)
  slices_S8x1024x1024_S1x1024x1024_0_0_0 : S8x1024x1024.Slices ![0, 0, 0] S1x1024x1024
  shapeCasts_S1x1024x1024_S1024x1024 : S1x1024x1024.ShapeCasts S1024x1024
  slices_S2048x8_S2048x1_0_0 : S2048x8.Slices ![0, 0] S2048x1
  bcast_S2048x1_S2048x1024_0_1 : S2048x1.BroadcastsInDim S2048x1024 (![0, 1] : Fin 2 → Fin S2048x1024.rank)
  slices_S8x1024x1024_S1x1024x1024_1_0_0 : S8x1024x1024.Slices ![1, 0, 0] S1x1024x1024
  slices_S2048x8_S2048x1_0_1 : S2048x8.Slices ![0, 1] S2048x1
  slices_S8x1024x1024_S1x1024x1024_2_0_0 : S8x1024x1024.Slices ![2, 0, 0] S1x1024x1024
  slices_S2048x8_S2048x1_0_2 : S2048x8.Slices ![0, 2] S2048x1
  slices_S8x1024x1024_S1x1024x1024_3_0_0 : S8x1024x1024.Slices ![3, 0, 0] S1x1024x1024
  slices_S2048x8_S2048x1_0_3 : S2048x8.Slices ![0, 3] S2048x1
  slices_S8x1024x1024_S1x1024x1024_4_0_0 : S8x1024x1024.Slices ![4, 0, 0] S1x1024x1024
  slices_S2048x8_S2048x1_0_4 : S2048x8.Slices ![0, 4] S2048x1
  slices_S8x1024x1024_S1x1024x1024_5_0_0 : S8x1024x1024.Slices ![5, 0, 0] S1x1024x1024
  slices_S2048x8_S2048x1_0_5 : S2048x8.Slices ![0, 5] S2048x1
  slices_S8x1024x1024_S1x1024x1024_6_0_0 : S8x1024x1024.Slices ![6, 0, 0] S1x1024x1024
  slices_S2048x8_S2048x1_0_6 : S2048x8.Slices ![0, 6] S2048x1
  slices_S8x1024x1024_S1x1024x1024_7_0_0 : S8x1024x1024.Slices ![7, 0, 0] S1x1024x1024
  slices_S2048x8_S2048x1_0_7 : S2048x8.Slices ![0, 7] S2048x1
  scatter_S2048x8_S2048x2x2_S2048x2_n_01_01_2_wf : ScatterDims.WF S2048x8 S2048x2x2 S2048x2 [] [0, 1] [0, 1] 2
  dot_S2048x1024_S1024x1024_S2048x1024_1_0_0_1_n_n_wf : DotDims.WF S2048x1024 S1024x1024 S2048x1024 [1] [0] [0] [1] [] []

variable [Facts₀]

def scatter_S2048x8_S2048x2x2_S2048x2_n_01_01_2 : ScatterDims S2048x8 S2048x2x2 S2048x2 where
  updateWindowDims := []
  insertedWindowDims := [0, 1]
  scatterDimsToOperandDims := [0, 1]
  indexVectorDim := 2
  wf := scatter_S2048x8_S2048x2x2_S2048x2_n_01_01_2_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

class Facts : Prop extends Facts₀ where

variable [Facts]
-- ==== Proof.KernelShared.lean ====
/-
  The body of the expert kernel runs at a grid point (token block, expert). What the two branches on the expert
  coordinate mean over the linear order of the points: the first branch (overwrite the output block) is taken exactly
  at expert 0, that is at the points divisible by 8; the second (add into the output block) at every other point. One
  of the two always holds, so the output block is written at every point.
-/
import proofs.«104262_g66563403153436_cont_9to1_m_1368_2_alg».proof.Proof.Gen.Kernel.Frame
import proofs.«104262_g66563403153436_cont_9to1_m_1368_2_alg».proof.Proof.Gen.Kernel.Skeleton

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The overwrite branch is taken exactly at the points of expert 0. -/
theorem cond_first : ∀ t : Fin cfg0.N, k0_cond1 (grid0.coords t) = 1#1 ↔ t.val % 8 = 0 :=
  (by decide +kernel : ∀ t : Fin grid0.N, k0_cond1 (grid0.coords t) = 1#1 ↔ t.val % 8 = 0)

/-- The accumulate branch is taken exactly at the points of the experts 1 … 7. -/
theorem cond_later : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- Whatever the expert coordinate, one of the two branches stores the whole output block. -/
theorem out_live (i : grid0.Coords) : cfg0.idle 6 i = false := by
  have h : ∀ v : Fin 8, (!(Scalar.cmpi .ne (Scalar.extui (Scalar.cmpi .eq (BitVec.ofNat 32 v.val) 0#32)) 0#32 == 1#1)
      && !(Scalar.cmpi .ne (Scalar.extui (Scalar.cmpi .ne (BitVec.ofNat 32 v.val) 0#32)) 0#32 == 1#1)) = false := by decide
  exact h (i 1)

/-- One staging buffer of the output window, through which its contents are stated. -/
abbrev VO : View sig .tc .vmem S256x1024 .f32 := (Memref.whole cc0_stg6_0 : Memref sig .tc .vmem S256x1024 .f32).view

/-- Each window's current staging memref at point `t`, and its wholeness. -/
abbrev ms0 (t : Fin cfg0.N) : Memref sig .tc .vmem S256x2 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x2 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1024 .f32 := win0_6.stage (cfg0.slots t 6)
abbrev hs6 (t : Fin cfg0.N) : (ms6 t).IsWhole := hstage0_6 ((cfg0.slots t 6).cast nbuf0_6)

end Cert.Kernel.Body

end
-- ==== Proof.KernelRunFirst.lean ====
/-
  The body at a point of expert 0: on whole staging buffers holding the six input blocks, it runs to
  its end without a fault, leaves the inputs as they were, and leaves the output buffer with the pieces its one store
  wrote (the expert's weighted contribution).
-/
import proofs.«104262_g66563403153436_cont_9to1_m_1368_2_alg».proof.Proof.KernelShared

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the output buffer at such a point, with the run that finds them. -/
noncomputable def runFirst (c : Dev nD) (i : grid0.Coords) (a2 : Memref sig .tc .vmem S256x2 .i32) (h2 : a2.IsWhole) (a3 : Memref sig .tc .vmem S256x2 .f32) (h3 : a3.IsWhole)
    (a4 : Memref sig .tc .vmem S256x1024 .f32) (h4 : a4.IsWhole) (a5 : Memref sig .tc .vmem S1x1024x1024 .f32) (h5 : a5.IsWhole)
    (a6 : Memref sig .tc .vmem S1x1024x1024 .f32) (h6 : a6.IsWhole) (a7 : Memref sig .tc .vmem S1x1024x1024 .f32) (h7 : a7.IsWhole)
    (a8 : Memref sig .tc .vmem S256x1024 .f32) (h8 : a8.IsWhole)
    (hc1 : k0_cond1 i = 1#1) (hc2 : ¬ k0_cond2 i = 1#1)
    (x0 : Vec F S256x2 .i32) (x1 : Vec F S256x2 .f32) (x2 : Vec F S256x1024 .f32)
    (x3 x4 x5 : Vec F S1x1024x1024 .f32) :
    { L : List (View.Piece (Elt F) S256x1024 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ (∃ d, owns (c : Thread nD τ) a8 fullShare d)
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
                ∗ (∃ f, a8.view.loc (c : Thread nD τ) ↦[a8.view.set]{fullShare} a8.view.writes (Elt F) f L)) -∗ K ⟨⟩))
          ⊢ wp frame (wpE (defs₀ (F := F)) Variants.none c none) E (cc0__moe_dense_body i a2 h2 a3 h3 a4 h4 a5 h5 a6 h6 a7 h7 a8 h8) K } := by
  refine ⟨?_, fun E K => ?run⟩
  case run =>
    simp only [cc0__moe_dense_body_eq_skeleton]; unfold cc0__moe_dense_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact H6

end Cert.Kernel.Body

end
-- ==== Proof.KernelRunLater.lean ====
/-
  The body at a point of an expert other than 0: on whole staging buffers holding the six input blocks and the running output block, it runs to
  its end without a fault, leaves the inputs as they were, and leaves the output buffer with the pieces its one store
  wrote (the running block plus the expert's weighted contribution).
-/
import proofs.«104262_g66563403153436_cont_9to1_m_1368_2_alg».proof.Proof.KernelShared

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the output buffer at such a point, with the run that finds them. -/
noncomputable def runLater (c : Dev nD) (i : grid0.Coords) (a2 : Memref sig .tc .vmem S256x2 .i32) (h2 : a2.IsWhole) (a3 : Memref sig .tc .vmem S256x2 .f32) (h3 : a3.IsWhole)
    (a4 : Memref sig .tc .vmem S256x1024 .f32) (h4 : a4.IsWhole) (a5 : Memref sig .tc .vmem S1x1024x1024 .f32) (h5 : a5.IsWhole)
    (a6 : Memref sig .tc .vmem S1x1024x1024 .f32) (h6 : a6.IsWhole) (a7 : Memref sig .tc .vmem S1x1024x1024 .f32) (h7 : a7.IsWhole)
    (a8 : Memref sig .tc .vmem S256x1024 .f32) (h8 : a8.IsWhole)
    (hc1 : ¬ k0_cond1 i = 1#1) (hc2 : k0_cond2 i = 1#1)
    (x0 : Vec F S256x2 .i32) (x1 : Vec F S256x2 .f32) (x2 : Vec F S256x1024 .f32)
    (x3 x4 x5 : Vec F S1x1024x1024 .f32) (xo : Vec F S256x1024 .f32) :
    { L : List (View.Piece (Elt F) S256x1024 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare xo
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
                ∗ (∃ f, a8.view.loc (c : Thread nD τ) ↦[a8.view.set]{fullShare} a8.view.writes (Elt F) f L)) -∗ K ⟨⟩))
          ⊢ wp frame (wpE (defs₀ (F := F)) Variants.none c none) E (cc0__moe_dense_body i a2 h2 a3 h3 a4 h4 a5 h5 a6 h6 a7 h7 a8 h8) K } := by
  refine ⟨?_, fun E K => ?run⟩
  case run =>
    simp only [cc0__moe_dense_body_eq_skeleton]; unfold cc0__moe_dense_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hf6
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact H6

end Cert.Kernel.Body

end
-- ==== Proof.KernelFrame.lean ====
/-
  The frame of the expert kernel: every weakly fair execution ends, nothing faults, the arguments end unchanged.
  What the output window's staging buffer holds after each point is defined by recursion on the point: at a point of
  expert 0 the body's overwrite of the block, at every other point the body's addition into what the point before
  left (the buffer is written back only after expert 7, so between two points of one token block it is kept). With
  this as the proof data, each input buffer holds its block at every point, the body obligation is the run of the
  point's case, and the pipeline's launch theorem gives the run of the whole program.
-/
import proofs.«104262_g66563403153436_cont_9to1_m_1368_2_alg».proof.Proof.KernelRunFirst
import proofs.«104262_g66563403153436_cont_9to1_m_1368_2_alg».proof.Proof.KernelRunLater

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At expert 0 the one store covers the whole output block. -/
theorem coverFirst (c : Dev nD) (i : grid0.Coords) (a2 : Memref sig .tc .vmem S256x2 .i32) (h2 : a2.IsWhole) (a3 : Memref sig .tc .vmem S256x2 .f32) (h3 : a3.IsWhole)
    (a4 : Memref sig .tc .vmem S256x1024 .f32) (h4 : a4.IsWhole) (a5 : Memref sig .tc .vmem S1x1024x1024 .f32) (h5 : a5.IsWhole)
    (a6 : Memref sig .tc .vmem S1x1024x1024 .f32) (h6 : a6.IsWhole) (a7 : Memref sig .tc .vmem S1x1024x1024 .f32) (h7 : a7.IsWhole)
    (a8 : Memref sig .tc .vmem S256x1024 .f32) (h8 : a8.IsWhole)
    (hc1 : k0_cond1 i = 1#1) (hc2 : ¬ k0_cond2 i = 1#1) (x0 : Vec F S256x2 .i32) (x1 : Vec F S256x2 .f32) (x2 : Vec F S256x1024 .f32)
    (x3 x4 x5 : Vec F S1x1024x1024 .f32) (y : S256x1024.Idx) :
    ∃ pc ∈ (runFirst c i a2 h2 a3 h3 a4 h4 a5 h5 a6 h6 a7 h7 a8 h8 hc1 hc2 x0 x1 x2 x3 x4 x5).1, y ∈ pc.1.set :=
  View.cover_of_tiledL (runFirst c i a2 h2 a3 h3 a4 h4 a5 h5 a6 h6 a7 h7 a8 h8 hc1 hc2 x0 x1 x2 x3 x4 x5).1 S256x1024.size (by sl_kernel_rfl) y

/-- What a point of expert 0 leaves in the output buffer: its pieces read back. -/
def outFirst (c : Dev nD) (i : grid0.Coords) (a2 : Memref sig .tc .vmem S256x2 .i32) (h2 : a2.IsWhole) (a3 : Memref sig .tc .vmem S256x2 .f32) (h3 : a3.IsWhole)
    (a4 : Memref sig .tc .vmem S256x1024 .f32) (h4 : a4.IsWhole) (a5 : Memref sig .tc .vmem S1x1024x1024 .f32) (h5 : a5.IsWhole)
    (a6 : Memref sig .tc .vmem S1x1024x1024 .f32) (h6 : a6.IsWhole) (a7 : Memref sig .tc .vmem S1x1024x1024 .f32) (h7 : a7.IsWhole)
    (a8 : Memref sig .tc .vmem S256x1024 .f32) (h8 : a8.IsWhole)
    (hc1 : k0_cond1 i = 1#1) (hc2 : ¬ k0_cond2 i = 1#1) (x0 : Vec F S256x2 .i32) (x1 : Vec F S256x2 .f32) (x2 : Vec F S256x1024 .f32)
    (x3 x4 x5 : Vec F S1x1024x1024 .f32) : Vec F S256x1024 .f32 :=
  VO.read (Elt F) (VO.writes (Elt F) VO.junk (runFirst c i a2 h2 a3 h3 a4 h4 a5 h5 a6 h6 a7 h7 a8 h8 hc1 hc2 x0 x1 x2 x3 x4 x5).1)

/-- At a later expert the one store covers the whole output block. -/
theorem coverLater (c : Dev nD) (i : grid0.Coords) (a2 : Memref sig .tc .vmem S256x2 .i32) (h2 : a2.IsWhole) (a3 : Memref sig .tc .vmem S256x2 .f32) (h3 : a3.IsWhole)
    (a4 : Memref sig .tc .vmem S256x1024 .f32) (h4 : a4.IsWhole) (a5 : Memref sig .tc .vmem S1x1024x1024 .f32) (h5 : a5.IsWhole)
    (a6 : Memref sig .tc .vmem S1x1024x1024 .f32) (h6 : a6.IsWhole) (a7 : Memref sig .tc .vmem S1x1024x1024 .f32) (h7 : a7.IsWhole)
    (a8 : Memref sig .tc .vmem S256x1024 .f32) (h8 : a8.IsWhole)
    (hc1 : ¬ k0_cond1 i = 1#1) (hc2 : k0_cond2 i = 1#1) (x0 : Vec F S256x2 .i32) (x1 : Vec F S256x2 .f32) (x2 : Vec F S256x1024 .f32)
    (x3 x4 x5 : Vec F S1x1024x1024 .f32) (xo : Vec F S256x1024 .f32) (y : S256x1024.Idx) :
    ∃ pc ∈ (runLater c i a2 h2 a3 h3 a4 h4 a5 h5 a6 h6 a7 h7 a8 h8 hc1 hc2 x0 x1 x2 x3 x4 x5 xo).1, y ∈ pc.1.set :=
  View.cover_of_tiledL (runLater c i a2 h2 a3 h3 a4 h4 a5 h5 a6 h6 a7 h7 a8 h8 hc1 hc2 x0 x1 x2 x3 x4 x5 xo).1 S256x1024.size (by sl_kernel_rfl) y

/-- What a point of a later expert leaves in the output buffer, given what it found there: its pieces read back. -/
def outLater (c : Dev nD) (i : grid0.Coords) (a2 : Memref sig .tc .vmem S256x2 .i32) (h2 : a2.IsWhole) (a3 : Memref sig .tc .vmem S256x2 .f32) (h3 : a3.IsWhole)
    (a4 : Memref sig .tc .vmem S256x1024 .f32) (h4 : a4.IsWhole) (a5 : Memref sig .tc .vmem S1x1024x1024 .f32) (h5 : a5.IsWhole)
    (a6 : Memref sig .tc .vmem S1x1024x1024 .f32) (h6 : a6.IsWhole) (a7 : Memref sig .tc .vmem S1x1024x1024 .f32) (h7 : a7.IsWhole)
    (a8 : Memref sig .tc .vmem S256x1024 .f32) (h8 : a8.IsWhole)
    (hc1 : ¬ k0_cond1 i = 1#1) (hc2 : k0_cond2 i = 1#1) (x0 : Vec F S256x2 .i32) (x1 : Vec F S256x2 .f32) (x2 : Vec F S256x1024 .f32)
    (x3 x4 x5 : Vec F S1x1024x1024 .f32) (xo : Vec F S256x1024 .f32) : Vec F S256x1024 .f32 :=
  VO.read (Elt F) (VO.writes (Elt F) VO.junk (runLater c i a2 h2 a3 h3 a4 h4 a5 h5 a6 h6 a7 h7 a8 h8 hc1 hc2 x0 x1 x2 x3 x4 x5 xo).1)

/-- THE ACCUMULATION: what the output buffer holds after the body at position `n`. -/
def outsAt (c : Dev nD) : (n : ℕ) → n < cfg0.N → Vec F S256x1024 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩)
      ((cond_first ⟨0, hn⟩).mpr (Nat.zero_mod _)) (fun h => (cond_later ⟨0, hn⟩).mp h (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 8 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩)
        ((cond_first ⟨n + 1, hn⟩).mpr h0) (fun h => (cond_later ⟨n + 1, hn⟩).mp h h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩)
        (fun h => h0 ((cond_first ⟨n + 1, hn⟩).mp h)) ((cond_later ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
        (outsAt c n (Nat.lt_of_succ_lt hn))

/-- `outsAt` at a point of expert 0. -/
theorem outsAt_first (c : Dev nD) (t : Fin cfg0.N) (h0 : t.val % 8 = 0) :
    outsAt m c t.val t.isLt = outFirst c (grid0.coords t) (ms0 t) (hs0 t) (ms1 t) (hs1 t) (ms2 t) (hs2 t) (ms3 t) (hs3 t) (ms4 t) (hs4 t) (ms5 t) (hs5 t) (ms6 t) (hs6 t)
      ((cond_first t).mpr h0) (fun h => (cond_later t).mp h h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

/-- `outsAt` at a point of a later expert: over what the point before left. -/
theorem outsAt_later (c : Dev nD) (t : Fin cfg0.N) (h0 : ¬t.val % 8 = 0) :
    outsAt m c t.val t.isLt = outLater c (grid0.coords t) (ms0 t) (hs0 t) (ms1 t) (hs1 t) (ms2 t) (hs2 t) (ms3 t) (hs3 t) (ms4 t) (hs4 t) (ms5 t) (hs5 t) (ms6 t) (hs6 t)
      (fun h => h0 ((cond_first t).mp h)) ((cond_later t).mpr h0) (iblk m c 0 t) (iblk m c 1 t) (iblk m c 2 t) (iblk m c 3 t) (iblk m c 4 t) (iblk m c 5 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t`
    each input's buffer at its block and the output's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outsAt m c t.val t.isLt) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- At a point of a later expert the output's current staging buffer holds what the body left at the point before:
    the point is not the first, and the buffer is written back only after expert 7. -/
theorem before_6_later (c : Dev nD) (t : Fin cfg0.N) (h0 : ¬t.val % 8 = 0) (d) :
    (dats m 0 c).before 6 t d = (outsAt m c (t.val - 1) (Nat.lt_of_le_of_lt (Nat.sub_le _ _) t.isLt)) := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    out_live (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4000000 in
/-- The body at any point: the inputs' buffers hold their blocks; the point is of expert 0 or of a later expert, and
    in the second case the output's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  have hN : t.val < 64 := lt_of_lt_of_eq t.isLt (show cfg0.N = 64 from N_0)
  by_cases h0 : t.val % 8 = 0
  · rw [outsAt_first m c t h0]
    unfold outFirst
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ ((cond_first t).mpr h0) (fun h => (cond_later t).mp h h0)
      (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverFirst c _ _ _ _ _ _ _ _ _ _ _ _ _ _ _ _ _ _ _ _ _ _ _)
  · rw [outsAt_later m c t h0]
    simp only [before_6_later m c t h0]
    unfold outLater
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) _ _ _ _ _ _ _ _ _ _ _ _ _ _ (fun h => h0 ((cond_first t).mp h)) ((cond_later t).mpr h0)
      (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverLater c _ _ _ _ _ _ _ _ _ _ _ _ _ _ _ _ _ _ _ _ _ _ _ _)

set_option maxHeartbeats 2000000 in
/-- The library's body obligation, at every point: the output window is never idle (one of the two branches stores
    it), so what the obligation asks of it is what the body leaves. -/
theorem body_obligation (c : Dev nD) : BodyObligation (dats (F := F) m 0 c) (defs₀ (F := F)) Variants.none () Set.univ := fun t => by
  rw [bigSep_W0, bigSep_W0]
  have h6 : idle0 6 (grid0.coords t) = false := out_live _
  simp only [h6]
  exact sound_body m c t

/-! ## The run and the frame -/

set_option maxHeartbeats 8000000 in
set_option backward.isDefEq.respectTransparency.types false in
/-- From any memory with zero counters every weakly fair execution of the program terminates, and every final state
    has every array of the pipeline at what the library computes from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: every weakly fair execution terminates without a fault and the six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KernelIdealShared.lean ====
/-
  The body of the expert kernel runs at a grid point (token block, expert). What the two branches on the expert
  coordinate mean over the linear order of the points: the first branch (overwrite the output block) is taken exactly
  at expert 0, that is at the points divisible by 8; the second (add into the output block) at every other point. One
  of the two always holds, so the output block is written at every point.
-/
import proofs.«104262_g66563403153436_cont_9to1_m_1368_2_alg».proof.Proof.Gen.KernelIdeal.Frame
import proofs.«104262_g66563403153436_cont_9to1_m_1368_2_alg».proof.Proof.Gen.KernelIdeal.Skeleton

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The overwrite branch is taken exactly at the points of expert 0. -/
theorem cond_first : ∀ t : Fin cfg0.N, k0_cond1 (grid0.coords t) = 1#1 ↔ t.val % 8 = 0 :=
  (by decide +kernel : ∀ t : Fin grid0.N, k0_cond1 (grid0.coords t) = 1#1 ↔ t.val % 8 = 0)

/-- The accumulate branch is taken exactly at the points of the experts 1 … 7. -/
theorem cond_later : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- Whatever the expert coordinate, one of the two branches stores the whole output block. -/
theorem out_live (i : grid0.Coords) : cfg0.idle 6 i = false := by
  have h : ∀ v : Fin 8, (!(Scalar.cmpi .ne (Scalar.extui (Scalar.cmpi .eq (BitVec.ofNat 32 v.val) 0#32)) 0#32 == 1#1)
      && !(Scalar.cmpi .ne (Scalar.extui (Scalar.cmpi .ne (BitVec.ofNat 32 v.val) 0#32)) 0#32 == 1#1)) = false := by decide
  exact h (i 1)

/-- One staging buffer of the output window, through which its contents are stated. -/
abbrev VO : View sig .tc .vmem S256x1024 .f32 := (Memref.whole cc0_stg6_0 : Memref sig .tc .vmem S256x1024 .f32).view

/-- Each window's current staging memref at point `t`, and its wholeness. -/
abbrev ms0 (t : Fin cfg0.N) : Memref sig .tc .vmem S256x2 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x2 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1024 .f32 := win0_6.stage (cfg0.slots t 6)
abbrev hs6 (t : Fin cfg0.N) : (ms6 t).IsWhole := hstage0_6 ((cfg0.slots t 6).cast nbuf0_6)

end Cert.KernelIdeal.Body

end
-- ==== Proof.KernelIdealRunFirst.lean ====
/-
  The body at a point of expert 0: on whole staging buffers holding the six input blocks, it runs to
  its end without a fault, leaves the inputs as they were, and leaves the output buffer with the pieces its one store
  wrote (the expert's weighted contribution).
-/
import proofs.«104262_g66563403153436_cont_9to1_m_1368_2_alg».proof.Proof.KernelIdealShared

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the output buffer at such a point, with the run that finds them. -/
noncomputable def runFirst (c : Dev nD) (i : grid0.Coords) (a2 : Memref sig .tc .vmem S256x2 .i32) (h2 : a2.IsWhole) (a3 : Memref sig .tc .vmem S256x2 .f32) (h3 : a3.IsWhole)
    (a4 : Memref sig .tc .vmem S256x1024 .f32) (h4 : a4.IsWhole) (a5 : Memref sig .tc .vmem S1x1024x1024 .f32) (h5 : a5.IsWhole)
    (a6 : Memref sig .tc .vmem S1x1024x1024 .f32) (h6 : a6.IsWhole) (a7 : Memref sig .tc .vmem S1x1024x1024 .f32) (h7 : a7.IsWhole)
    (a8 : Memref sig .tc .vmem S256x1024 .f32) (h8 : a8.IsWhole)
    (hc1 : k0_cond1 i = 1#1) (hc2 : ¬ k0_cond2 i = 1#1)
    (x0 : Vec F S256x2 .i32) (x1 : Vec F S256x2 .f32) (x2 : Vec F S256x1024 .f32)
    (x3 x4 x5 : Vec F S1x1024x1024 .f32) :
    { L : List (View.Piece (Elt F) S256x1024 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ (∃ d, owns (c : Thread nD τ) a8 fullShare d)
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
                ∗ (∃ f, a8.view.loc (c : Thread nD τ) ↦[a8.view.set]{fullShare} a8.view.writes (Elt F) f L)) -∗ K ⟨⟩))
          ⊢ wp frame (wpE (defs₀ (F := F)) Variants.none c none) E (cc0__moe_dense_body i a2 h2 a3 h3 a4 h4 a5 h5 a6 h6 a7 h7 a8 h8) K } := by
  refine ⟨?_, fun E K => ?run⟩
  case run =>
    simp only [cc0__moe_dense_body_eq_skeleton]; unfold cc0__moe_dense_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact H6

end Cert.KernelIdeal.Body

end
-- ==== Proof.KernelIdealRunLater.lean ====
/-
  The body at a point of an expert other than 0: on whole staging buffers holding the six input blocks and the running output block, it runs to
  its end without a fault, leaves the inputs as they were, and leaves the output buffer with the pieces its one store
  wrote (the running block plus the expert's weighted contribution).
-/
import proofs.«104262_g66563403153436_cont_9to1_m_1368_2_alg».proof.Proof.KernelIdealShared

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the output buffer at such a point, with the run that finds them. -/
noncomputable def runLater (c : Dev nD) (i : grid0.Coords) (a2 : Memref sig .tc .vmem S256x2 .i32) (h2 : a2.IsWhole) (a3 : Memref sig .tc .vmem S256x2 .f32) (h3 : a3.IsWhole)
    (a4 : Memref sig .tc .vmem S256x1024 .f32) (h4 : a4.IsWhole) (a5 : Memref sig .tc .vmem S1x1024x1024 .f32) (h5 : a5.IsWhole)
    (a6 : Memref sig .tc .vmem S1x1024x1024 .f32) (h6 : a6.IsWhole) (a7 : Memref sig .tc .vmem S1x1024x1024 .f32) (h7 : a7.IsWhole)
    (a8 : Memref sig .tc .vmem S256x1024 .f32) (h8 : a8.IsWhole)
    (hc1 : ¬ k0_cond1 i = 1#1) (hc2 : k0_cond2 i = 1#1)
    (x0 : Vec F S256x2 .i32) (x1 : Vec F S256x2 .f32) (x2 : Vec F S256x1024 .f32)
    (x3 x4 x5 : Vec F S1x1024x1024 .f32) (xo : Vec F S256x1024 .f32) :
    { L : List (View.Piece (Elt F) S256x1024 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare xo
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
                ∗ (∃ f, a8.view.loc (c : Thread nD τ) ↦[a8.view.set]{fullShare} a8.view.writes (Elt F) f L)) -∗ K ⟨⟩))
          ⊢ wp frame (wpE (defs₀ (F := F)) Variants.none c none) E (cc0__moe_dense_body i a2 h2 a3 h3 a4 h4 a5 h5 a6 h6 a7 h7 a8 h8) K } := by
  refine ⟨?_, fun E K => ?run⟩
  case run =>
    simp only [cc0__moe_dense_body_eq_skeleton]; unfold cc0__moe_dense_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hf6
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact H6

end Cert.KernelIdeal.Body

end
-- ==== Proof.KernelIdealFrame.lean ====
/-
  The frame of the expert kernel: every weakly fair execution ends, nothing faults, the arguments end unchanged.
  What the output window's staging buffer holds after each point is defined by recursion on the point: at a point of
  expert 0 the body's overwrite of the block, at every other point the body's addition into what the point before
  left (the buffer is written back only after expert 7, so between two points of one token block it is kept). With
  this as the proof data, each input buffer holds its block at every point, the body obligation is the run of the
  point's case, and the pipeline's launch theorem gives the run of the whole program.
-/
import proofs.«104262_g66563403153436_cont_9to1_m_1368_2_alg».proof.Proof.KernelIdealRunFirst
import proofs.«104262_g66563403153436_cont_9to1_m_1368_2_alg».proof.Proof.KernelIdealRunLater

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At expert 0 the one store covers the whole output block. -/
theorem coverFirst (c : Dev nD) (i : grid0.Coords) (a2 : Memref sig .tc .vmem S256x2 .i32) (h2 : a2.IsWhole) (a3 : Memref sig .tc .vmem S256x2 .f32) (h3 : a3.IsWhole)
    (a4 : Memref sig .tc .vmem S256x1024 .f32) (h4 : a4.IsWhole) (a5 : Memref sig .tc .vmem S1x1024x1024 .f32) (h5 : a5.IsWhole)
    (a6 : Memref sig .tc .vmem S1x1024x1024 .f32) (h6 : a6.IsWhole) (a7 : Memref sig .tc .vmem S1x1024x1024 .f32) (h7 : a7.IsWhole)
    (a8 : Memref sig .tc .vmem S256x1024 .f32) (h8 : a8.IsWhole)
    (hc1 : k0_cond1 i = 1#1) (hc2 : ¬ k0_cond2 i = 1#1) (x0 : Vec F S256x2 .i32) (x1 : Vec F S256x2 .f32) (x2 : Vec F S256x1024 .f32)
    (x3 x4 x5 : Vec F S1x1024x1024 .f32) (y : S256x1024.Idx) :
    ∃ pc ∈ (runFirst c i a2 h2 a3 h3 a4 h4 a5 h5 a6 h6 a7 h7 a8 h8 hc1 hc2 x0 x1 x2 x3 x4 x5).1, y ∈ pc.1.set :=
  View.cover_of_tiledL (runFirst c i a2 h2 a3 h3 a4 h4 a5 h5 a6 h6 a7 h7 a8 h8 hc1 hc2 x0 x1 x2 x3 x4 x5).1 S256x1024.size (by sl_kernel_rfl) y

/-- What a point of expert 0 leaves in the output buffer: its pieces read back. -/
def outFirst (c : Dev nD) (i : grid0.Coords) (a2 : Memref sig .tc .vmem S256x2 .i32) (h2 : a2.IsWhole) (a3 : Memref sig .tc .vmem S256x2 .f32) (h3 : a3.IsWhole)
    (a4 : Memref sig .tc .vmem S256x1024 .f32) (h4 : a4.IsWhole) (a5 : Memref sig .tc .vmem S1x1024x1024 .f32) (h5 : a5.IsWhole)
    (a6 : Memref sig .tc .vmem S1x1024x1024 .f32) (h6 : a6.IsWhole) (a7 : Memref sig .tc .vmem S1x1024x1024 .f32) (h7 : a7.IsWhole)
    (a8 : Memref sig .tc .vmem S256x1024 .f32) (h8 : a8.IsWhole)
    (hc1 : k0_cond1 i = 1#1) (hc2 : ¬ k0_cond2 i = 1#1) (x0 : Vec F S256x2 .i32) (x1 : Vec F S256x2 .f32) (x2 : Vec F S256x1024 .f32)
    (x3 x4 x5 : Vec F S1x1024x1024 .f32) : Vec F S256x1024 .f32 :=
  VO.read (Elt F) (VO.writes (Elt F) VO.junk (runFirst c i a2 h2 a3 h3 a4 h4 a5 h5 a6 h6 a7 h7 a8 h8 hc1 hc2 x0 x1 x2 x3 x4 x5).1)

/-- At a later expert the one store covers the whole output block. -/
theorem coverLater (c : Dev nD) (i : grid0.Coords) (a2 : Memref sig .tc .vmem S256x2 .i32) (h2 : a2.IsWhole) (a3 : Memref sig .tc .vmem S256x2 .f32) (h3 : a3.IsWhole)
    (a4 : Memref sig .tc .vmem S256x1024 .f32) (h4 : a4.IsWhole) (a5 : Memref sig .tc .vmem S1x1024x1024 .f32) (h5 : a5.IsWhole)
    (a6 : Memref sig .tc .vmem S1x1024x1024 .f32) (h6 : a6.IsWhole) (a7 : Memref sig .tc .vmem S1x1024x1024 .f32) (h7 : a7.IsWhole)
    (a8 : Memref sig .tc .vmem S256x1024 .f32) (h8 : a8.IsWhole)
    (hc1 : ¬ k0_cond1 i = 1#1) (hc2 : k0_cond2 i = 1#1) (x0 : Vec F S256x2 .i32) (x1 : Vec F S256x2 .f32) (x2 : Vec F S256x1024 .f32)
    (x3 x4 x5 : Vec F S1x1024x1024 .f32) (xo : Vec F S256x1024 .f32) (y : S256x1024.Idx) :
    ∃ pc ∈ (runLater c i a2 h2 a3 h3 a4 h4 a5 h5 a6 h6 a7 h7 a8 h8 hc1 hc2 x0 x1 x2 x3 x4 x5 xo).1, y ∈ pc.1.set :=
  View.cover_of_tiledL (runLater c i a2 h2 a3 h3 a4 h4 a5 h5 a6 h6 a7 h7 a8 h8 hc1 hc2 x0 x1 x2 x3 x4 x5 xo).1 S256x1024.size (by sl_kernel_rfl) y

/-- What a point of a later expert leaves in the output buffer, given what it found there: its pieces read back. -/
def outLater (c : Dev nD) (i : grid0.Coords) (a2 : Memref sig .tc .vmem S256x2 .i32) (h2 : a2.IsWhole) (a3 : Memref sig .tc .vmem S256x2 .f32) (h3 : a3.IsWhole)
    (a4 : Memref sig .tc .vmem S256x1024 .f32) (h4 : a4.IsWhole) (a5 : Memref sig .tc .vmem S1x1024x1024 .f32) (h5 : a5.IsWhole)
    (a6 : Memref sig .tc .vmem S1x1024x1024 .f32) (h6 : a6.IsWhole) (a7 : Memref sig .tc .vmem S1x1024x1024 .f32) (h7 : a7.IsWhole)
    (a8 : Memref sig .tc .vmem S256x1024 .f32) (h8 : a8.IsWhole)
    (hc1 : ¬ k0_cond1 i = 1#1) (hc2 : k0_cond2 i = 1#1) (x0 : Vec F S256x2 .i32) (x1 : Vec F S256x2 .f32) (x2 : Vec F S256x1024 .f32)
    (x3 x4 x5 : Vec F S1x1024x1024 .f32) (xo : Vec F S256x1024 .f32) : Vec F S256x1024 .f32 :=
  VO.read (Elt F) (VO.writes (Elt F) VO.junk (runLater c i a2 h2 a3 h3 a4 h4 a5 h5 a6 h6 a7 h7 a8 h8 hc1 hc2 x0 x1 x2 x3 x4 x5 xo).1)

/-- THE ACCUMULATION: what the output buffer holds after the body at position `n`. -/
def outsAt (c : Dev nD) : (n : ℕ) → n < cfg0.N → Vec F S256x1024 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩)
      ((cond_first ⟨0, hn⟩).mpr (Nat.zero_mod _)) (fun h => (cond_later ⟨0, hn⟩).mp h (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 8 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩)
        ((cond_first ⟨n + 1, hn⟩).mpr h0) (fun h => (cond_later ⟨n + 1, hn⟩).mp h h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩)
        (fun h => h0 ((cond_first ⟨n + 1, hn⟩).mp h)) ((cond_later ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
        (outsAt c n (Nat.lt_of_succ_lt hn))

/-- `outsAt` at a point of expert 0. -/
theorem outsAt_first (c : Dev nD) (t : Fin cfg0.N) (h0 : t.val % 8 = 0) :
    outsAt m c t.val t.isLt = outFirst c (grid0.coords t) (ms0 t) (hs0 t) (ms1 t) (hs1 t) (ms2 t) (hs2 t) (ms3 t) (hs3 t) (ms4 t) (hs4 t) (ms5 t) (hs5 t) (ms6 t) (hs6 t)
      ((cond_first t).mpr h0) (fun h => (cond_later t).mp h h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

/-- `outsAt` at a point of a later expert: over what the point before left. -/
theorem outsAt_later (c : Dev nD) (t : Fin cfg0.N) (h0 : ¬t.val % 8 = 0) :
    outsAt m c t.val t.isLt = outLater c (grid0.coords t) (ms0 t) (hs0 t) (ms1 t) (hs1 t) (ms2 t) (hs2 t) (ms3 t) (hs3 t) (ms4 t) (hs4 t) (ms5 t) (hs5 t) (ms6 t) (hs6 t)
      (fun h => h0 ((cond_first t).mp h)) ((cond_later t).mpr h0) (iblk m c 0 t) (iblk m c 1 t) (iblk m c 2 t) (iblk m c 3 t) (iblk m c 4 t) (iblk m c 5 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t`
    each input's buffer at its block and the output's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outsAt m c t.val t.isLt) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- At a point of a later expert the output's current staging buffer holds what the body left at the point before:
    the point is not the first, and the buffer is written back only after expert 7. -/
theorem before_6_later (c : Dev nD) (t : Fin cfg0.N) (h0 : ¬t.val % 8 = 0) (d) :
    (dats m 0 c).before 6 t d = (outsAt m c (t.val - 1) (Nat.lt_of_le_of_lt (Nat.sub_le _ _) t.isLt)) := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    out_live (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4000000 in
/-- The body at any point: the inputs' buffers hold their blocks; the point is of expert 0 or of a later expert, and
    in the second case the output's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  have hN : t.val < 64 := lt_of_lt_of_eq t.isLt (show cfg0.N = 64 from N_0)
  by_cases h0 : t.val % 8 = 0
  · rw [outsAt_first m c t h0]
    unfold outFirst
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ ((cond_first t).mpr h0) (fun h => (cond_later t).mp h h0)
      (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverFirst c _ _ _ _ _ _ _ _ _ _ _ _ _ _ _ _ _ _ _ _ _ _ _)
  · rw [outsAt_later m c t h0]
    simp only [before_6_later m c t h0]
    unfold outLater
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) _ _ _ _ _ _ _ _ _ _ _ _ _ _ (fun h => h0 ((cond_first t).mp h)) ((cond_later t).mpr h0)
      (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverLater c _ _ _ _ _ _ _ _ _ _ _ _ _ _ _ _ _ _ _ _ _ _ _ _)

set_option maxHeartbeats 2000000 in
/-- The library's body obligation, at every point: the output window is never idle (one of the two branches stores
    it), so what the obligation asks of it is what the body leaves. -/
theorem body_obligation (c : Dev nD) : BodyObligation (dats (F := F) m 0 c) (defs₀ (F := F)) Variants.none () Set.univ := fun t => by
  rw [bigSep_W0, bigSep_W0]
  have h6 : idle0 6 (grid0.coords t) = false := out_live _
  simp only [h6]
  exact sound_body m c t

/-! ## The run and the frame -/

set_option maxHeartbeats 8000000 in
set_option backward.isDefEq.respectTransparency.types false in
/-- From any memory with zero counters every weakly fair execution of the program terminates, and every final state
    has every array of the pipeline at what the library computes from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: every weakly fair execution terminates without a fault and the six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KernelIdealPieces.lean ====
/-
  What the body's one store leaves in the output buffer, as a value: at a point of expert 0 the point's contribution;
  at a later expert the contribution added to what the buffer held.
-/
import proofs.«104262_g66563403153436_cont_9to1_m_1368_2_alg».proof.Proof.KernelIdealFrame
import Idealize.ShloMosaic.Lib.Pipeline.Value

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- At expert 0 the output buffer ends holding the expert's weighted contribution. -/
theorem outFirst_eq (c : Dev nD) (i : grid0.Coords) (a2 : Memref sig .tc .vmem S256x2 .i32) (h2 : a2.IsWhole) (a3 : Memref sig .tc .vmem S256x2 .f32) (h3 : a3.IsWhole)
    (a4 : Memref sig .tc .vmem S256x1024 .f32) (h4 : a4.IsWhole) (a5 : Memref sig .tc .vmem S1x1024x1024 .f32) (h5 : a5.IsWhole)
    (a6 : Memref sig .tc .vmem S1x1024x1024 .f32) (h6 : a6.IsWhole) (a7 : Memref sig .tc .vmem S1x1024x1024 .f32) (h7 : a7.IsWhole)
    (a8 : Memref sig .tc .vmem S256x1024 .f32) (h8 : a8.IsWhole)
    (hc1 : k0_cond1 i = 1#1) (hc2 : ¬ k0_cond2 i = 1#1) (x0 : Vec F S256x2 .i32) (x1 : Vec F S256x2 .f32) (x2 : Vec F S256x1024 .f32)
    (x3 x4 x5 : Vec F S1x1024x1024 .f32) :
    outFirst c i a2 h2 a3 h3 a4 h4 a5 h5 a6 h6 a7 h7 a8 h8 hc1 hc2 x0 x1 x2 x3 x4 x5 = k0_pay2 i x2 x3 x4 x5 x0 x1 := by
  unfold outFirst
  rw [View.read_writes_eq_canon _ _ _ (coverFirst c i a2 h2 a3 h3 a4 h4 a5 h5 a6 h6 a7 h7 a8 h8 hc1 hc2 x0 x1 x2 x3 x4 x5)]
  unfold runFirst
  dsimp only
  sl_unfold_words
  rw [View.canon_unit_zero hz2]
  simp only [View.readAt_eq_ld, h2.read_unread, h3.read_unread, h4.read_unread, h5.read_unread, h6.read_unread, h7.read_unread,
    View.ld_unit_zero (S := S256x1024) hz2, View.ld_unit_zero (S := S256x2) hz2, View.ld_unit_zero (S := S1x1024x1024) hz3]

/-- At a later expert the output buffer ends holding what it held plus the expert's weighted contribution. -/
theorem outLater_eq (c : Dev nD) (i : grid0.Coords) (a2 : Memref sig .tc .vmem S256x2 .i32) (h2 : a2.IsWhole) (a3 : Memref sig .tc .vmem S256x2 .f32) (h3 : a3.IsWhole)
    (a4 : Memref sig .tc .vmem S256x1024 .f32) (h4 : a4.IsWhole) (a5 : Memref sig .tc .vmem S1x1024x1024 .f32) (h5 : a5.IsWhole)
    (a6 : Memref sig .tc .vmem S1x1024x1024 .f32) (h6 : a6.IsWhole) (a7 : Memref sig .tc .vmem S1x1024x1024 .f32) (h7 : a7.IsWhole)
    (a8 : Memref sig .tc .vmem S256x1024 .f32) (h8 : a8.IsWhole)
    (hc1 : ¬ k0_cond1 i = 1#1) (hc2 : k0_cond2 i = 1#1) (x0 : Vec F S256x2 .i32) (x1 : Vec F S256x2 .f32) (x2 : Vec F S256x1024 .f32)
    (x3 x4 x5 : Vec F S1x1024x1024 .f32) (xo : Vec F S256x1024 .f32) :
    outLater c i a2 h2 a3 h3 a4 h4 a5 h5 a6 h6 a7 h7 a8 h8 hc1 hc2 x0 x1 x2 x3 x4 x5 xo
      = k0_pay1 (k0_pay2 i x2 x3 x4 x5 x0 x1) xo := by
  unfold outLater
  rw [View.read_writes_eq_canon _ _ _ (coverLater c i a2 h2 a3 h3 a4 h4 a5 h5 a6 h6 a7 h7 a8 h8 hc1 hc2 x0 x1 x2 x3 x4 x5 xo)]
  unfold runLater
  dsimp only
  sl_unfold_words
  rw [View.canon_unit_zero hz2]
  simp only [View.readAt_eq_ld, h2.read_unread, h3.read_unread, h4.read_unread, h5.read_unread, h6.read_unread, h7.read_unread,
    h8.read_unread, View.ld_unit_zero (S := S256x1024) hz2, View.ld_unit_zero (S := S256x2) hz2, View.ld_unit_zero (S := S1x1024x1024) hz3]

end Cert.KernelIdeal.Body

end
-- ==== Proof.MoeSpec.lean ====
/-
  The mixture of experts as plain functions on the extended reals.

  For one token with features `x`, an expert with matrices `wg`, `wu`, `wd` computes
  `y q = ∑ f, (g f · σ(g f) · u f) · wd f q` with `g = x · wg`, `u = x · wu` and `σ` the logistic function. The token's
  two routing weights `T 0`, `T 1` are renormalised by their sum, and expert `e` receives the share of each slot whose
  index names it. The result for the token is the sum over the experts, in their order, of share times output.
-/
import Idealize.ShloMosaic.PureOps.Ideal
import Idealize.ShloMosaic.PureOps.Ideal.Laws
import Mathlib.Algebra.BigOperators.Fin

noncomputable section

namespace Cert.Moe

open Idealize.ShloMosaic

/-- A feature row against column `f` of a matrix. -/
def proj (x : Fin 1024 → EReal) (w : Fin 1024 → Fin 1024 → EReal) (f : Fin 1024) : EReal :=
  ∑ k : Fin 1024, x k * w k f

/-- The gated hidden activation: `g · σ(g) · u`. -/
def hidden (x : Fin 1024 → EReal) (wg wu : Fin 1024 → Fin 1024 → EReal) (f : Fin 1024) : EReal :=
  proj x wg f * Ideal.logistic (proj x wg f) * proj x wu f

/-- One expert's output for one token. -/
def expertOut (x : Fin 1024 → EReal) (wg wu wd : Fin 1024 → Fin 1024 → EReal) (q : Fin 1024) : EReal :=
  ∑ f : Fin 1024, hidden x wg wu f * wd f q

/-- A routing weight divided by the sum of the token's two. -/
def share (T : Fin 2 → EReal) (k : Fin 2) : EReal := Ideal.div (T k) (∑ j : Fin 2, T j)

/-- What expert `e` receives from a token: the shares of the slots that name it. -/
def weight (T : Fin 2 → EReal) (I : Fin 2 → BitVec 32) (e : ℕ) : EReal :=
  (if I 0 = BitVec.ofNat 32 e then share T 0 else 0) + (if I 1 = BitVec.ofNat 32 e then share T 1 else 0)

/-- Expert `e`'s weighted contribution to a token's output feature `q`. -/
def term (x : Fin 1024 → EReal) (wg wu wd : Fin 1024 → Fin 1024 → EReal) (T : Fin 2 → EReal) (I : Fin 2 → BitVec 32)
    (e : ℕ) (q : Fin 1024) : EReal :=
  weight T I e * expertOut x wg wu wd q

/-- The running sum of a sequence, first term first: `c 0`, then `+ c 1`, … -/
def accum (c : ℕ → EReal) : ℕ → EReal
  | 0 => c 0
  | n + 1 => accum c n + c (n + 1)

/-- The whole layer at token `r`, feature `q`: the experts' contributions summed in order. -/
def layer (X : Fin 2048 → Fin 1024 → EReal) (TW : Fin 2048 → Fin 2 → EReal) (IDX : Fin 2048 → Fin 2 → BitVec 32)
    (WG WU WD : Fin 8 → Fin 1024 → Fin 1024 → EReal) (r : Fin 2048) (q : Fin 1024) (e : ℕ) : EReal :=
  if h : e < 8 then term (X r) (WG ⟨e, h⟩) (WU ⟨e, h⟩) (WD ⟨e, h⟩) (TW r) (IDX r) e q else 0

end Cert.Moe

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KernelIdealTerm.lean ====
/-
  One grid point's contribution, read at an index. The body multiplies a 256-row block of tokens by the point's
  expert: at row `p`, feature `q` of the block the stored value is that token's expert output times the expert's
  routing weight for it — `Moe.term` of the token's row, the expert's three matrices, the token's two routing weights
  and two expert indices, and the expert's number (the point's second grid coordinate).
-/
import proofs.«104262_g66563403153436_cont_9to1_m_1368_2_alg».proof.Proof.Gen.KernelIdeal.Skeleton
import proofs.«104262_g66563403153436_cont_9to1_m_1368_2_alg».proof.Proof.MoeSpec
import proofs.«104262_g66563403153436_cont_9to1_m_1368_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Term

open Cert.KernelIdeal Cert.KernelIdeal.Gen Idealize.ShloMosaic Idealize.ShloMosaic.ValueIdx Cert.LibKeepdims

theorem lhs0 (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs1 (i : S256x1024.Idx) (q : dot_S256x1024_S1024x1024_S256x1024_1_0_0_1_n_n.contr.Idx) : (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs0 (i : S256x1024.Idx) (q : dot_S256x1024_S1024x1024_S256x1024_1_0_0_1_n_n.contr.Idx) : (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs1 (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A 256-row block times a 1024×1024 matrix into the zero block, at row `p`, column `q`: the row against the column. -/
theorem matmul_at (lhs : FVec Ideal S256x1024 .f32) (rhs : FVec Ideal S1024x1024 .f32) (p : Fin 256) (q : Fin 1024) :
    matmul dot_S256x1024_S1024x1024_S256x1024_1_0_0_1_n_n none lhs rhs (constant (F := Ideal) S256x1024 .f32 0x00000000#32) (ix2 p q)
      = ∑ k : Fin 1024, lhs (ix2 p k) * rhs (ix2 k q) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p q) ((ValueIdx.contrEquiv1 dot_S256x1024_S1024x1024_S256x1024_1_0_0_1_n_n 1024 rfl rfl).symm k) = ix2 p k := funext fun a => Fin.ext (by
    match a with
    | ⟨0, _⟩ => exact lhs0 _ _
    | ⟨1, _⟩ => exact (lhs1 _ _).trans hk)
  have er : dot_S256x1024_S1024x1024_S256x1024_1_0_0_1_n_n.rhsIdx (ix2 p q) ((ValueIdx.contrEquiv1 dot_S256x1024_S1024x1024_S256x1024_1_0_0_1_n_n 1024 rfl rfl).symm k) = ix2 k q := funext fun a => Fin.ext (by
    match a with
    | ⟨0, _⟩ => exact (rhs0 _ _).trans hk
    | ⟨1, _⟩ => exact rhs1 _ _)
  rw [el, er]

/-- The sum of a token's two routing weights. -/
theorem rowsum_at (v : FVec Ideal S256x2 .f32) (hφ : FKind.Formats .f32)
    (hacc : (0x00000000#32 : BitVec 32) = 0x00000000#32) (p : Fin 256) :
    multiReduction .add [1] S256 v 0x00000000#32 reduces_S256x2_S256 hφ hacc (ix1 p) = ∑ k : Fin 2, v (ix2 p k) := by
  refine (Ideal.multiReduction_add_single v 0x00000000#32 reduces_S256x2_S256 hφ hacc (ix1 p)).trans ?_
  refine Finset.sum_congr rfl fun k _ => congrArg v ?_
  funext a
  match a with
  | ⟨0, _⟩ => rfl
  | ⟨1, _⟩ => rfl

theorem logistic_at (v : FVec Ideal S256x1024 .f32) (i : S256x1024.Idx) : logistic v i = Ideal.logistic (v i) := rfl

theorem cmpi_at (a b : IVec S256x1 32) (i : S256x1.Idx) : cmpi .eq a b i = IntOp.cmpi .eq (a i) (b i) := rfl

/-- Choosing by the outcome of an equality test is choosing by the equality. -/
theorem select_eq {α : Type} (x y : BitVec 32) (a b : α) : Scalar.select (IntOp.cmpi .eq x y) a b = if x = y then a else b := by
  unfold Scalar.select IntOp.cmpi
  by_cases h : x = y
  · subst h; simp
  · have hb : (x == y) = false := by simpa using h
    simp [hb, h]

theorem slice_col0 {α : Type} (v : S256x2.Idx → α) (p : Fin 256) :
    extractStridedSlice S256x1 ![0, 0] v slices_S256x2_o0_0_S256x1 (ix2 p (0 : Fin 1)) = v (ix2 p (0 : Fin 2)) :=
  slice2_axis1_apply 0 v slices_S256x2_o0_0_S256x1 p (0 : Fin 1) (0 : Fin 2) rfl
theorem slice_col1 {α : Type} (v : S256x2.Idx → α) (p : Fin 256) :
    extractStridedSlice S256x1 ![0, 1] v slices_S256x2_o0_1_S256x1 (ix2 p (0 : Fin 1)) = v (ix2 p (1 : Fin 2)) :=
  slice2_axis1_apply 1 v slices_S256x2_o0_1_S256x1 p (0 : Fin 1) (1 : Fin 2) rfl

/-- THE POINT'S CONTRIBUTION at row `p`, feature `q` of the block. -/
theorem pay2_apply (i : grid0.Coords) (v0 : FVec Ideal S256x1024 .f32) (v1 v4 v10 : FVec Ideal S1x1024x1024 .f32)
    (v13 : IVec S256x2 32) (v14 : FVec Ideal S256x2 .f32) (p : Fin 256) (q : Fin 1024) :
    k0_pay2 (F := Ideal) i v0 v1 v4 v10 v13 v14 (ix2 p q)
      = Moe.term (fun k => v0 (ix2 p k)) (fun k f => v1 (ix3 (0 : Fin 1) k f)) (fun k f => v4 (ix3 (0 : Fin 1) k f))
          (fun k f => v10 (ix3 (0 : Fin 1) k f)) (fun k => v14 (ix2 p k)) (fun k => v13 (ix2 p k)) (i 1).val q := by
  unfold k0_pay2
  dsimp only
  simp only [mulf_apply, matmul_at, logistic_at, shapeCast_1ab_ab_apply, broadcastTo_a1_ab_apply, addf_apply, select_apply,
    cmpi_at, select_eq, broadcast_apply, slice_col0, slice_col1, divf_apply, shapeCast_a_a1_apply, rowsum_at]
  simp only [Ideal.ofBits_def, Ideal.ofBits_zero_f32, zero_add]
  rw [rowsum_at v14 _ _ p, mul_comm]
  rfl

end Cert.KernelIdeal.Term

end
-- ==== Proof.KernelIdealBlocks.lean ====
/-
  The kernel's windows, read index by index.

  The grid has 8 × 8 points; point `t` has coordinates `(t / 8, t % 8)` = (token block, expert). Each of the three
  per-token windows at point `t` is rows `256 · (t / 8) …` of its array, each of the three weight windows is expert
  `t % 8`'s matrix, and the output window is rows `256 · (t / 8) …` of the result, written back at the last expert.
-/
import proofs.«104262_g66563403153436_cont_9to1_m_1368_2_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- A point is below 64. -/
theorem t_lt (t : Fin cfg0.N) : t.val < 64 := by
  have h := t.isLt
  have e : cfg0.N = 64 := N_0
  omega

/-- Row `p` of point `t`'s token block, as a row of the whole array. -/
def tok (t : Fin cfg0.N) (p : Fin 256) : Fin 2048 := ⟨256 * (t.val / 8) + p.val, by
  have h := t_lt t
  have hp := p.isLt
  omega⟩

/-- Point `t`'s expert. -/
def ex (t : Fin cfg0.N) : Fin 8 := ⟨t.val % 8, Nat.mod_lt _ (by decide)⟩

/-- The second grid coordinate of point `t` is `t % 8`. -/
theorem coord1 (t : Fin cfg0.N) : ((grid0.coords t) 1).val = t.val % 8 :=
  (by decide +kernel : ∀ t : Fin grid0.N, ((grid0.coords t) 1).val = t.val % 8) t

/-- The printed index maps, decided over the grid. -/
theorem idx_facts : ∀ t : Fin cfg0.N,
    (win0_0.index t (0 : Fin 2) = t.val / 8 ∧ win0_0.index t (1 : Fin 2) = 0)
    ∧ (win0_1.index t (0 : Fin 2) = t.val / 8 ∧ win0_1.index t (1 : Fin 2) = 0)
    ∧ (win0_2.index t (0 : Fin 2) = t.val / 8 ∧ win0_2.index t (1 : Fin 2) = 0)
    ∧ (win0_3.index t (0 : Fin 3) = t.val % 8 ∧ win0_3.index t (1 : Fin 3) = 0 ∧ win0_3.index t (2 : Fin 3) = 0)
    ∧ (win0_4.index t (0 : Fin 3) = t.val % 8 ∧ win0_4.index t (1 : Fin 3) = 0 ∧ win0_4.index t (2 : Fin 3) = 0)
    ∧ (win0_5.index t (0 : Fin 3) = t.val % 8 ∧ win0_5.index t (1 : Fin 3) = 0 ∧ win0_5.index t (2 : Fin 3) = 0)
    ∧ (win0_6.index t (0 : Fin 2) = t.val / 8 ∧ win0_6.index t (1 : Fin 2) = 0) :=
  (by decide +kernel : ∀ t : Fin grid0.N, _)

theorem blk_idx (c : Dev nD) (t : Fin cfg0.N) (p : Fin 256) (k : Fin 2) :
    iblk m c 0 t (ix2 p k) = m ((c.tc : Thread nD τ).loc main_arg2) (ix2 (tok t p) k) := by
  obtain ⟨⟨h0, h1⟩, -⟩ := idx_facts t
  unfold iblk
  rw [View.read_apply]
  show V m c main_arg2 _ = _
  unfold V
  refine congrArg _ ?_
  funext a
  apply Fin.ext
  match a with
  | ⟨0, _⟩ =>
    show win0_0.index t (0 : Fin 2) * 256 + 1 * p.val = 256 * (t.val / 8) + p.val
    rw [h0]; omega
  | ⟨1, _⟩ =>
    show win0_0.index t (1 : Fin 2) * 2 + 1 * k.val = k.val
    rw [h1]; omega

theorem blk_tw (c : Dev nD) (t : Fin cfg0.N) (p : Fin 256) (k : Fin 2) :
    iblk m c 1 t (ix2 p k) = m ((c.tc : Thread nD τ).loc main_arg1) (ix2 (tok t p) k) := by
  obtain ⟨-, ⟨h0, h1⟩, -⟩ := idx_facts t
  unfold iblk
  rw [View.read_apply]
  show V m c main_arg1 _ = _
  unfold V
  refine congrArg _ ?_
  funext a
  apply Fin.ext
  match a with
  | ⟨0, _⟩ =>
    show win0_1.index t (0 : Fin 2) * 256 + 1 * p.val = 256 * (t.val / 8) + p.val
    rw [h0]; omega
  | ⟨1, _⟩ =>
    show win0_1.index t (1 : Fin 2) * 2 + 1 * k.val = k.val
    rw [h1]; omega

theorem blk_x (c : Dev nD) (t : Fin cfg0.N) (p : Fin 256) (k : Fin 1024) :
    iblk m c 2 t (ix2 p k) = m ((c.tc : Thread nD τ).loc main_arg0) (ix2 (tok t p) k) := by
  obtain ⟨-, -, ⟨h0, h1⟩, -⟩ := idx_facts t
  unfold iblk
  rw [View.read_apply]
  show V m c main_arg0 _ = _
  unfold V
  refine congrArg _ ?_
  funext a
  apply Fin.ext
  match a with
  | ⟨0, _⟩ =>
    show win0_2.index t (0 : Fin 2) * 256 + 1 * p.val = 256 * (t.val / 8) + p.val
    rw [h0]; omega
  | ⟨1, _⟩ =>
    show win0_2.index t (1 : Fin 2) * 1024 + 1 * k.val = k.val
    rw [h1]; omega

theorem blk_wg (c : Dev nD) (t : Fin cfg0.N) (k f : Fin 1024) :
    iblk m c 3 t (ix3 (0 : Fin 1) k f) = m ((c.tc : Thread nD τ).loc main_arg3) (ix3 (ex t) k f) := by
  obtain ⟨-, -, -, ⟨h0, h1, h2⟩, -⟩ := idx_facts t
  unfold iblk
  rw [View.read_apply]
  show V m c main_arg3 _ = _
  unfold V
  refine congrArg _ ?_
  funext a
  apply Fin.ext
  match a with
  | ⟨0, _⟩ =>
    show win0_3.index t (0 : Fin 3) * 1 + 1 * 0 = t.val % 8
    rw [h0]; omega
  | ⟨1, _⟩ =>
    show win0_3.index t (1 : Fin 3) * 1024 + 1 * k.val = k.val
    rw [h1]; omega
  | ⟨2, _⟩ =>
    show win0_3.index t (2 : Fin 3) * 1024 + 1 * f.val = f.val
    rw [h2]; omega

theorem blk_wu (c : Dev nD) (t : Fin cfg0.N) (k f : Fin 1024) :
    iblk m c 4 t (ix3 (0 : Fin 1) k f) = m ((c.tc : Thread nD τ).loc main_arg4) (ix3 (ex t) k f) := by
  obtain ⟨-, -, -, -, ⟨h0, h1, h2⟩, -⟩ := idx_facts t
  unfold iblk
  rw [View.read_apply]
  show V m c main_arg4 _ = _
  unfold V
  refine congrArg _ ?_
  funext a
  apply Fin.ext
  match a with
  | ⟨0, _⟩ =>
    show win0_4.index t (0 : Fin 3) * 1 + 1 * 0 = t.val % 8
    rw [h0]; omega
  | ⟨1, _⟩ =>
    show win0_4.index t (1 : Fin 3) * 1024 + 1 * k.val = k.val
    rw [h1]; omega
  | ⟨2, _⟩ =>
    show win0_4.index t (2 : Fin 3) * 1024 + 1 * f.val = f.val
    rw [h2]; omega

theorem blk_wd (c : Dev nD) (t : Fin cfg0.N) (k f : Fin 1024) :
    iblk m c 5 t (ix3 (0 : Fin 1) k f) = m ((c.tc : Thread nD τ).loc main_arg5) (ix3 (ex t) k f) := by
  obtain ⟨-, -, -, -, -, ⟨h0, h1, h2⟩, -⟩ := idx_facts t
  unfold iblk
  rw [View.read_apply]
  show V m c main_arg5 _ = _
  unfold V
  refine congrArg _ ?_
  funext a
  apply Fin.ext
  match a with
  | ⟨0, _⟩ =>
    show win0_5.index t (0 : Fin 3) * 1 + 1 * 0 = t.val % 8
    rw [h0]; omega
  | ⟨1, _⟩ =>
    show win0_5.index t (1 : Fin 3) * 1024 + 1 * k.val = k.val
    rw [h1]; omega
  | ⟨2, _⟩ =>
    show win0_5.index t (2 : Fin 3) * 1024 + 1 * f.val = f.val
    rw [h2]; omega

theorem out_emb (t : Fin cfg0.N) (p : Fin 256) (q : Fin 1024) :
    ((cfg0.win 6).blk t).view.emb (ix2 p q) = ix2 (tok t p) q := by
  obtain ⟨-, -, -, -, -, -, h0, h1⟩ := idx_facts t
  funext a
  apply Fin.ext
  match a with
  | ⟨0, _⟩ =>
    show win0_6.index t (0 : Fin 2) * 256 + 1 * p.val = 256 * (t.val / 8) + p.val
    rw [h0]; omega
  | ⟨1, _⟩ =>
    show win0_6.index t (1 : Fin 2) * 1024 + 1 * q.val = q.val
    rw [h1]; omega

/-- An index of the result array is in point `t`'s output block iff each coordinate is in the block's range. -/
theorem mem_blk6 (t : Fin cfg0.N) (i : S2048x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v0).slice (win0_6.rect t)).set ↔ _
  rw [View.set_slice_whole, Rect.mem_set_unit]
  exact Iff.rfl

theorem out_cover (i : S2048x1024.Idx) :
    ∃ t : Fin cfg0.N, (cfg0.win 6).flush t = true ∧ i ∈ ((cfg0.win 6).blk t).view.set := by
  have hi0 : (i 0).val < 2048 := (i 0).isLt
  have hi1 : (i 1).val < 1024 := (i 1).isLt
  have hN : cfg0.N = 64 := N_0
  obtain ⟨T, hT⟩ : ∃ T : Fin cfg0.N, T.val = 8 * ((i 0).val / 256) + 7 :=
    ⟨⟨8 * ((i 0).val / 256) + 7, by rw [hN]; omega⟩, rfl⟩
  obtain ⟨-, -, -, -, -, -, h0, h1⟩ := idx_facts T
  refine ⟨T, (flush0_6 T).2 (by omega), ?_⟩
  rw [mem_blk6]
  intro a
  match a with
  | ⟨0, _⟩ =>
    show win0_6.index T (0 : Fin 2) * 256 ≤ (i 0).val ∧ (i 0).val < win0_6.index T (0 : Fin 2) * 256 + 256
    rw [h0]; omega
  | ⟨1, _⟩ =>
    show win0_6.index T (1 : Fin 2) * 1024 ≤ (i 1).val ∧ (i 1).val < win0_6.index T (1 : Fin 2) * 1024 + 1024
    rw [h1]; omega

end Cert.KernelIdeal.Blocks

end
-- ==== Proof.KernelIdealResult.lean ====
/-
  What the kernel's result array ends holding: at token `r`, feature `q` the running sum, over the eight experts in
  order, of the expert's weighted contribution `Moe.layer`.

  At point `t` = (token block, expert) the body's contribution, read at row `p`, feature `q` of the block, is the
  layer's term for token 256·(t/8) + p and expert t%8 (the windows' blocks read where the index maps put them). By
  induction on the point, the output buffer after point `t` holds the running sum up to expert t%8 for the tokens
  of its block: a point of expert 0 overwrites, a later point adds to what the point before left, and the token block
  does not change between them. The buffer is written back after expert 7, where the sum is complete, and those
  blocks tile the array.
-/
import proofs.«104262_g66563403153436_cont_9to1_m_1368_2_alg».proof.Proof.KernelIdealPieces
import proofs.«104262_g66563403153436_cont_9to1_m_1368_2_alg».proof.Proof.KernelIdealTerm
import proofs.«104262_g66563403153436_cont_9to1_m_1368_2_alg».proof.Proof.KernelIdealBlocks
import Idealize.ShloMosaic.Lib.Pipeline.Value

set_option maxRecDepth 16384

noncomputable section

namespace Cert.KernelIdeal.Result

open Cert.KernelIdeal Cert.KernelIdeal.Gen Cert.KernelIdeal.Body Cert.KernelIdeal.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The experts' contributions to token `r`, feature `q`, from the argument arrays in memory. -/
def contrib (c : Dev nD) (r : Fin 2048) (q : Fin 1024) (e : ℕ) : EReal :=
  Moe.layer (fun r k => m ((c.tc : Thread nD τ).loc main_arg0) (ix2 r k)) (fun r k => m ((c.tc : Thread nD τ).loc main_arg1) (ix2 r k))
    (fun r k => m ((c.tc : Thread nD τ).loc main_arg2) (ix2 r k)) (fun e k f => m ((c.tc : Thread nD τ).loc main_arg3) (ix3 e k f))
    (fun e k f => m ((c.tc : Thread nD τ).loc main_arg4) (ix3 e k f)) (fun e k f => m ((c.tc : Thread nD τ).loc main_arg5) (ix3 e k f)) r q e

/-- The body's contribution at point `t`, at row `p` and feature `q` of its block. -/
theorem point_term (c : Dev nD) (t : Fin cfg0.N) (p : Fin 256) (q : Fin 1024) :
    k0_pay2 (F := Ideal) (grid0.coords t) (iblk m c 2 t) (iblk m c 3 t) (iblk m c 4 t) (iblk m c 5 t) (iblk m c 0 t) (iblk m c 1 t) (ix2 p q)
      = contrib m c (tok t p) q (t.val % 8) := by
  refine (Term.pay2_apply (grid0.coords t) (iblk m c 2 t) (iblk m c 3 t) (iblk m c 4 t) (iblk m c 5 t) (iblk m c 0 t) (iblk m c 1 t) p q).trans ?_
  unfold contrib Moe.layer
  rw [dif_pos (Nat.mod_lt _ (by decide))]
  simp only [blk_x, blk_wg, blk_wu, blk_wd, blk_tw, blk_idx, coord1]
  rfl

/-- THE RUNNING SUM: after point `n` the output buffer holds, for each token of its block, the contributions of the
    experts up to `n % 8`. -/
theorem outsAt_eq (c : Dev nD) : ∀ (n : ℕ) (h : n < cfg0.N) (p : Fin 256) (q : Fin 1024),
    outsAt m c n h (ix2 p q) = Moe.accum (contrib m c (tok ⟨n, h⟩ p) q) (n % 8)
  | 0, h, p, q => by
    rw [outsAt_first m c ⟨0, h⟩ rfl, outFirst_eq]
    exact point_term m c ⟨0, h⟩ p q
  | n + 1, h, p, q => by
    have hN : n + 1 < 64 := lt_of_lt_of_eq h N_0
    by_cases h0 : (n + 1) % 8 = 0
    · rw [outsAt_first m c ⟨n + 1, h⟩ h0, outFirst_eq]
      refine (point_term m c ⟨n + 1, h⟩ p q).trans ?_
      show contrib m c (tok ⟨n + 1, h⟩ p) q ((n + 1) % 8) = Moe.accum (contrib m c (tok ⟨n + 1, h⟩ p) q) ((n + 1) % 8)
      rw [h0]
      rfl
    · rw [outsAt_later m c ⟨n + 1, h⟩ h0, outLater_eq]
      unfold k0_pay1
      dsimp only
      rw [addf_apply, shapeCast_self]
      show outsAt m c n (Nat.lt_of_succ_lt h) (ix2 p q) + _ = _
      rw [outsAt_eq c n (Nat.lt_of_succ_lt h) p q, point_term m c ⟨n + 1, h⟩ p q]
      have e1 : (n + 1) % 8 = n % 8 + 1 := by omega
      have e2 : tok ⟨n + 1, h⟩ p = tok ⟨n, Nat.lt_of_succ_lt h⟩ p := Fin.ext (by
        show 256 * ((n + 1) / 8) + p.val = 256 * (n / 8) + p.val
        have : (n + 1) / 8 = n / 8 := by omega
        rw [this])
      show Moe.accum (contrib m c (tok ⟨n, Nat.lt_of_succ_lt h⟩ p) q) (n % 8) + contrib m c (tok ⟨n + 1, h⟩ p) q ((n + 1) % 8)
        = Moe.accum (contrib m c (tok ⟨n + 1, h⟩ p) q) ((n + 1) % 8)
      rw [e1, e2]
      rfl

/-- The result array's contents: the complete sum at every token and feature. -/
def result (c : Dev nD) : Buf (Elt Ideal) ((c.tc : Thread nD τ).loc main_v0) :=
  fun (i : S2048x1024.Idx) => Moe.accum (contrib m c ⟨(i 0).val, idx2_lt0 i⟩ ⟨(i 1).val, idx2_lt1 i⟩) 7

/-- What a point of expert 7 writes back is its block of the result. -/
theorem flushed_eq (c : Dev nD) (t : Fin cfg0.N) (hf : (cfg0.win 6).flush t = true) :
    (dats m 0 c).flushed 6 t = ((cfg0.win 6).blk t).view.read (Elt Ideal) (result m c) := by
  have h7 : t.val % 8 = 7 := (flush0_6 t).mp hf
  show (cfg0.win 6).cut (grid0.coords t) ((dats m 0 c).after 6 t) = _
  rw [after_6]
  funext j
  obtain ⟨p, q, rfl⟩ : ∃ (p : Fin 256) (q : Fin 1024), j = ix2 p q := ⟨j 0, j 1, eq_ix2 j⟩
  show outsAt m c t.val t.isLt (ix2 p q) = result m c (((cfg0.win 6).blk t).view.emb (ix2 p q))
  rw [outsAt_eq m c t.val t.isLt p q, out_emb, h7]
  rfl

/-- So the result array ends holding the complete sums. -/
theorem final (c : Dev nD) : (dats m 0 c).arrAt 6 cfg0.N = result m c :=
  (dats m 0 c).arrAt_eq_of_cover 6 (result m c) (flushed_eq m c) out_cover

/-- The run, read: the result array at the complete sums, the six arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final m c),
      ((h c).1 2).trans (((dats m 0 c).arrAt_in 2 rfl _).trans ((A_eq m c 2).trans (V_main_arg0 m c))),
      ((h c).1 1).trans (((dats m 0 c).arrAt_in 1 rfl _).trans ((A_eq m c 1).trans (V_main_arg1 m c))),
      ((h c).1 0).trans (((dats m 0 c).arrAt_in 0 rfl _).trans ((A_eq m c 0).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.Result

end
-- ==== Proof.RefCombine.lean ====
/-
  The reference's combine weights, read at an index.

  The reference scatters the renormalised routing weights into a zero array of one row per token and one column per
  expert: update `(r, k)` carries token `r`'s share of slot `k` and its index vector is (row number, expert index of the
  slot). With every expert index non-negative, element `(r, e)` of the result is the sum of token `r`'s shares over the
  slots that name expert `e`.
-/
import proofs.«104262_g66563403153436_cont_9to1_m_1368_2_alg».proof.Proof.Gen.ReferenceIdeal.Read
import proofs.«104262_g66563403153436_cont_9to1_m_1368_2_alg».proof.Proof.MoeSpec

noncomputable section

namespace Cert.RefCombine

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-- An update lands on operand index `i` exactly when, on every axis, its window start plus its window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hb
      have h0 := Option.some.inj h
      intro a
      have h1 := congrArg Fin.val (congrFun h0 a)
      have h2 := hb a
      simp only at h1
      omega
    · exact absurd h (by simp)
  · intro h
    have hb : ∀ a, 0 ≤ d.start j idx a + (d.window j a : Int) ∧ d.start j idx a + (d.window j a : Int) < s.size a := by
      intro a
      have h1 := h a
      have h2 := (i a).isLt
      omega
    rw [dif_pos hb]
    congr 1
    funext a
    apply Fin.ext
    have h1 := h a
    simp only
    omega

/-- The scatter's dimension numbers. -/
abbrev D : ScatterDims S2048x8 S2048x2x2 S2048x2 := scatter_S2048x8_S2048x2x2_S2048x2_n_01_01_2

/-- Both operand axes are inserted window axes: the window coordinate is zero. -/
theorem window_eq_zero (j : S2048x2.Idx) (a : Fin 2) : D.window j a = 0 := by
  have hs : ∀ a : Fin 2, a ∉ D.sKept := by decide
  unfold ScatterDims.window
  rw [dif_neg (hs a)]

/-- The start on operand axis `a` of update `(r, k)` is component `a` of its index vector, read signed. -/
theorem start_eq (r : Fin 2048) (k : Fin 2) (idx : IVec S2048x2x2 32) (a : Fin 2) :
    D.start (ix2 r k) idx a = (idx (ix3 r k a)).toInt := by
  have hm : ∀ a : Fin 2, a ∈ D.scatterDimsToOperandDims := by decide
  match a with
  | ⟨0, _⟩ =>
    unfold ScatterDims.start
    rw [dif_pos (hm _)]
    congr 2
    funext b
    refine Fin.ext ?_
    match b with
    | ⟨0, _⟩ => rfl
    | ⟨1, _⟩ => rfl
    | ⟨2, _⟩ => rfl
  | ⟨1, _⟩ =>
    unfold ScatterDims.start
    rw [dif_pos (hm _)]
    congr 2
    funext b
    refine Fin.ext ?_
    match b with
    | ⟨0, _⟩ => rfl
    | ⟨1, _⟩ => rfl
    | ⟨2, _⟩ => rfl

/-- A small natural number as a 32-bit word reads back, signed, as itself. -/
theorem toInt_ofNat_small (n : Nat) (h : n < 2147483648) : (BitVec.ofNat 32 n).toInt = (n : Int) := by
  rw [BitVec.toInt_eq_toNat_cond, BitVec.toNat_ofNat]
  have h1 : n % 2 ^ 32 = n := Nat.mod_eq_of_lt (by omega)
  rw [h1]
  split <;> omega

/-- A word that reads non-negative is not signed-less-than zero. -/
theorem cmpi_slt_zero (x : BitVec 32) (h : 0 ≤ x.toInt) : IntOp.cmpi .slt x 0#32 = 0#1 := by
  have h1 : x.slt 0#32 = false := by
    rw [BitVec.slt, BitVec.toInt_zero]
    exact decide_eq_false (by omega)
  show BitVec.ofBool (x.slt 0#32) = 0#1
  rw [h1]
  rfl

/-- Component 0 of the index vector of update `(r, k)` is the row number. -/
theorem v20_row (IDX : (⟨S2048x2, .i32⟩ : BufTy).Contents (Elt Ideal)) (r : Fin 2048) (k : Fin 2) :
    val_main_v20 (F := Ideal) IDX (ix3 r k (0 : Fin 2)) = BitVec.ofNat 32 r.val := by
  unfold val_main_v20
  refine (concatenate_pair_apply_left (t := S2048x2x2) (s₁ := S2048x2x1) (s₂ := S2048x2x1) 2 (val_main_v18 (F := Ideal))
    (val_main_v19 (F := Ideal) IDX) concatenates_S2048x2x1_S2048x2x1_S2048x2x2_d2 (ix3 r k (0 : Fin 2)) rfl
    (ix3 r k (0 : Fin 1)) (fun b => ?_)).trans ?_
  · match b with
    | ⟨0, _⟩ => rfl
    | ⟨1, _⟩ => rfl
    | ⟨2, _⟩ => rfl
  · rw [val_main_v18_apply, val_main_v17_apply, val_main_v11_apply, val_main_v8_apply, val_main_v10_apply,
      val_main_v5_apply, val_main_v4_apply, val_main_v7_apply, val_main_c_apply]
    show Scalar.select (IntOp.cmpi .slt (BitVec.ofNat 32 r.val) 0#32) _ (BitVec.ofNat 32 r.val) = BitVec.ofNat 32 r.val
    rw [cmpi_slt_zero _ (by rw [toInt_ofNat_small _ (by omega)]; omega)]
    exact select_zero _ _

/-- Component 1 of the index vector of update `(r, k)` is the expert index, when that is not negative. -/
theorem v20_col (IDX : (⟨S2048x2, .i32⟩ : BufTy).Contents (Elt Ideal)) (r : Fin 2048) (k : Fin 2)
    (h : 0 ≤ (IDX (ix2 r k)).toInt) :
    val_main_v20 (F := Ideal) IDX (ix3 r k (1 : Fin 2)) = IDX (ix2 r k) := by
  unfold val_main_v20
  refine (concatenate_pair_apply_right (t := S2048x2x2) (s₁ := S2048x2x1) (s₂ := S2048x2x1) 2 (val_main_v18 (F := Ideal))
    (val_main_v19 (F := Ideal) IDX) concatenates_S2048x2x1_S2048x2x1_S2048x2x2_d2 (ix3 r k (1 : Fin 2)) rfl rfl
    (ix3 r k (0 : Fin 1)) (fun b hb => ?_) rfl).trans ?_
  · match b with
    | ⟨0, _⟩ => rfl
    | ⟨1, _⟩ => rfl
    | ⟨2, _⟩ => exact absurd rfl hb
  · have hi : idx_main_v19 (ix3 r k (0 : Fin 1)) = ix2 r k := by
      funext a
      match a with
      | ⟨0, _⟩ => rfl
      | ⟨1, _⟩ => rfl
    rw [val_main_v19_apply, val_main_v16_apply, val_main_v13_apply, val_main_v12_apply, val_main_c_2_apply, hi]
    show Scalar.select (IntOp.cmpi .slt (IDX (ix2 r k)) 0#32) _ (IDX (ix2 r k)) = IDX (ix2 r k)
    rw [cmpi_slt_zero _ h]
    exact select_zero _ _

/-- A 32-bit word reads, signed, as a small natural number exactly when it is that number's word. -/
theorem toInt_eq_iff (x : BitVec 32) (n : Nat) (hn : n < 2147483648) :
    x.toInt = (n : Int) ↔ x = BitVec.ofNat 32 n := by
  constructor
  · intro h
    apply BitVec.eq_of_toInt_eq
    rw [h, toInt_ofNat_small n hn]
  · intro h
    rw [h, toInt_ofNat_small n hn]

/-- Update `(r', k)` lands on element `(r, e)` exactly when it is in row `r` and its slot names expert `e`. -/
theorem hit_iff (IDX : (⟨S2048x2, .i32⟩ : BufTy).Contents (Elt Ideal))
    (hidx : ∀ (r : Fin 2048) (k : Fin 2), 0 ≤ (IDX (ix2 r k)).toInt) (r' r : Fin 2048) (k : Fin 2) (e : Fin 8) :
    D.resultIdx? (ix2 r' k) (val_main_v20 (F := Ideal) IDX) = some (ix2 r e)
      ↔ (r' = r ∧ IDX (ix2 r' k) = BitVec.ofNat 32 e.val) := by
  rw [resultIdx?_eq_some_iff]
  have e0 : D.start (ix2 r' k) (val_main_v20 (F := Ideal) IDX) (0 : Fin 2) + (D.window (ix2 r' k) (0 : Fin 2) : Int)
      = (r'.val : Int) := by
    rw [window_eq_zero, start_eq, v20_row, toInt_ofNat_small _ (by omega)]
    simp only [Nat.cast_zero, add_zero]
  have e1 : D.start (ix2 r' k) (val_main_v20 (F := Ideal) IDX) (1 : Fin 2) + (D.window (ix2 r' k) (1 : Fin 2) : Int)
      = (IDX (ix2 r' k)).toInt := by
    rw [window_eq_zero, start_eq, v20_col _ _ _ (hidx r' k)]
    simp only [Nat.cast_zero, add_zero]
  constructor
  · intro h
    have h0 := h (0 : Fin 2)
    have h1 := h (1 : Fin 2)
    rw [e0] at h0
    rw [e1] at h1
    have h0' : (r'.val : Int) = (r.val : Int) := h0
    have h1' : (IDX (ix2 r' k)).toInt = (e.val : Int) := h1
    exact ⟨Fin.ext (by omega), (toInt_eq_iff _ _ (by omega)).1 h1'⟩
  · rintro ⟨hr, he⟩ a
    match a with
    | ⟨0, _⟩ =>
      refine e0.trans ?_
      rw [hr]
    | ⟨1, _⟩ =>
      refine e1.trans ?_
      rw [(toInt_eq_iff _ _ (by omega)).2 he]

/-- The renormalised routing weight of slot `k` of token `r`. -/
theorem v3_eq (TW : (⟨S2048x2, .f32⟩ : BufTy).Contents (Elt Ideal)) (r : Fin 2048) (k : Fin 2) :
    val_main_v3 (F := Ideal) TW (ix2 r k) = Ideal.div (TW (ix2 r k)) (∑ j : Fin 2, TW (ix2 r j)) := by
  rw [val_main_v3_apply, val_main_v2_apply, val_main_v1_apply, val_main_v0_apply, val_main_cst_apply]
  show Ideal.div (TW (ix2 r k)) (Ideal.ofBits .f32 0x00000000#32
    + ∑ k' : Fin 2, TW (idx_main_v0 (idx_main_v1 (idx_main_v2 (ix2 r k))) k')) = _
  rw [Ideal.ofBits_zero_f32, zero_add]
  congr 1
  refine Finset.sum_congr rfl fun k' _ => congrArg TW ?_
  funext a
  match a with
  | ⟨0, _⟩ => rfl
  | ⟨1, _⟩ => rfl

theorem combine_apply (TW : (⟨Cert.ReferenceIdeal.S2048x2, .f32⟩ : BufTy).Contents (Elt Ideal)) (IDX : (⟨Cert.ReferenceIdeal.S2048x2, .i32⟩ : BufTy).Contents (Elt Ideal))
    (hidx : ∀ (r : Fin 2048) (k : Fin 2), 0 ≤ (IDX (ValueIdx.ix2 r k)).toInt) (r : Fin 2048) (e : Fin 8) :
    Cert.ReferenceIdeal.Read.val_main_v21 (F := Ideal) TW IDX (ValueIdx.ix2 r e)
      = Cert.Moe.weight (fun k => TW (ValueIdx.ix2 r k)) (fun k => IDX (ValueIdx.ix2 r k)) e.val := by
  unfold val_main_v21
  simp only [Host.scatterAdd, Ideal.hostScatterAdd_def, Ideal.hostScatterAdd]
  rw [val_main_v6_apply, val_main_cst_0_apply]
  show Ideal.ofBits .f32 0x00000000#32 + _ = _
  rw [Ideal.ofBits_zero_f32, zero_add, Finset.sum_filter, sum_idx2, Finset.sum_eq_single r]
  · rw [Fin.sum_univ_two]
    simp only [hit_iff IDX hidx, true_and, v3_eq]
    rfl
  · intro r' _ hne
    refine Finset.sum_eq_zero fun k _ => if_neg ?_
    rw [hit_iff IDX hidx]
    exact fun h => hne h.1
  · intro h
    exact absurd (Finset.mem_univ r) h

end Cert.RefCombine

end
-- ==== Proof.RefExpert0.lean ====
/-
  Expert 0 in the reference program, read at an index: its three matrices cut out of the stacks, the two
  projections of a token's row, the gated hidden activation (the reference spells the logistic function as
  1 / (1 + exp(-g))), the output projection, and the product with the token's combine weight for this expert.
-/
import proofs.«104262_g66563403153436_cont_9to1_m_1368_2_alg».proof.Proof.Gen.ReferenceIdeal.Read
import proofs.«104262_g66563403153436_cont_9to1_m_1368_2_alg».proof.Proof.MoeSpec
import Idealize.ShloMosaic.Lib.IdealHost

noncomputable section

namespace Cert.RefExpert

open Cert.ReferenceIdeal Cert.ReferenceIdeal.Read Idealize.ShloMosaic Idealize.ShloMosaic.ValueIdx

/-- The expert's matrix, cut out of the stack and flattened, read at an index. -/
theorem gate0 (W : (⟨S8x1024x1024, .f32⟩ : BufTy).Contents (Elt Ideal)) (k f : Fin 1024) :
    val_main_v24 (F := Ideal) W (ix2 k f) = W (ix3 (⟨0, by decide⟩ : Fin 8) k f) := by
  rw [val_main_v24_apply, val_main_v23_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- The expert's matrix, cut out of the stack and flattened, read at an index. -/
theorem up0 (W : (⟨S8x1024x1024, .f32⟩ : BufTy).Contents (Elt Ideal)) (k f : Fin 1024) :
    val_main_v28 (F := Ideal) W (ix2 k f) = W (ix3 (⟨0, by decide⟩ : Fin 8) k f) := by
  rw [val_main_v28_apply, val_main_v27_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- The expert's matrix, cut out of the stack and flattened, read at an index. -/
theorem down0 (W : (⟨S8x1024x1024, .f32⟩ : BufTy).Contents (Elt Ideal)) (k f : Fin 1024) :
    val_main_v33 (F := Ideal) W (ix2 k f) = W (ix3 (⟨0, by decide⟩ : Fin 8) k f) := by
  rw [val_main_v33_apply, val_main_v32_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- A token's row against a column of the expert's matrix. -/
theorem g0 (X : (⟨S2048x1024, .f32⟩ : BufTy).Contents (Elt Ideal)) (W : (⟨S8x1024x1024, .f32⟩ : BufTy).Contents (Elt Ideal)) (r : Fin 2048) (f : Fin 1024) :
    val_main_v25 (F := Ideal) X W (ix2 r f) = Moe.proj (fun k => X (ix2 r k)) (fun k f => W (ix3 (⟨0, by decide⟩ : Fin 8) k f)) f := by
  rw [val_main_v25_apply]
  unfold Moe.proj
  refine Finset.sum_congr rfl fun k _ => ?_
  have el : lidx_main_v25 (ix2 r f) k = ix2 r k := funext fun a => Fin.ext (by
    match a with
    | ⟨0, _⟩ => rfl
    | ⟨1, _⟩ => rfl)
  have er : ridx_main_v25 (ix2 r f) k = ix2 k f := funext fun a => Fin.ext (by
    match a with
    | ⟨0, _⟩ => rfl
    | ⟨1, _⟩ => rfl)
  rw [el, er, gate0]

/-- A token's row against a column of the expert's matrix. -/
theorem u0 (X : (⟨S2048x1024, .f32⟩ : BufTy).Contents (Elt Ideal)) (W : (⟨S8x1024x1024, .f32⟩ : BufTy).Contents (Elt Ideal)) (r : Fin 2048) (f : Fin 1024) :
    val_main_v29 (F := Ideal) X W (ix2 r f) = Moe.proj (fun k => X (ix2 r k)) (fun k f => W (ix3 (⟨0, by decide⟩ : Fin 8) k f)) f := by
  rw [val_main_v29_apply]
  unfold Moe.proj
  refine Finset.sum_congr rfl fun k _ => ?_
  have el : lidx_main_v29 (ix2 r f) k = ix2 r k := funext fun a => Fin.ext (by
    match a with
    | ⟨0, _⟩ => rfl
    | ⟨1, _⟩ => rfl)
  have er : ridx_main_v29 (ix2 r f) k = ix2 k f := funext fun a => Fin.ext (by
    match a with
    | ⟨0, _⟩ => rfl
    | ⟨1, _⟩ => rfl)
  rw [el, er, up0]

/-- The gated hidden activation `g · σ(g) · u`. -/
theorem h0 (X : (⟨S2048x1024, .f32⟩ : BufTy).Contents (Elt Ideal)) (WG WU : (⟨S8x1024x1024, .f32⟩ : BufTy).Contents (Elt Ideal)) (r : Fin 2048) (f : Fin 1024) :
    val_main_v30 (F := Ideal) X WG WU (ix2 r f)
      = Moe.hidden (fun k => X (ix2 r k)) (fun k f => WG (ix3 (⟨0, by decide⟩ : Fin 8) k f)) (fun k f => WU (ix3 (⟨0, by decide⟩ : Fin 8) k f)) f := by
  rw [val_main_v30_apply, val_main_v26_apply, val_main_call0_v5_apply, val_main_call0_v4_apply, val_main_call0_cst_0_apply,
    val_main_call0_v3_apply, val_main_call0_v2_apply, val_main_call0_cst_apply, val_main_call0_v1_apply, val_main_call0_v0_apply,
    g0, u0]
  simp only [Ideal.ofBits_def, Ideal.ofBits_one_f32]
  rfl

/-- The expert's output for a token. -/
theorem y0 (X : (⟨S2048x1024, .f32⟩ : BufTy).Contents (Elt Ideal)) (WG WU WD : (⟨S8x1024x1024, .f32⟩ : BufTy).Contents (Elt Ideal)) (r : Fin 2048) (q : Fin 1024) :
    val_main_v34 (F := Ideal) X WG WU WD (ix2 r q)
      = Moe.expertOut (fun k => X (ix2 r k)) (fun k f => WG (ix3 (⟨0, by decide⟩ : Fin 8) k f)) (fun k f => WU (ix3 (⟨0, by decide⟩ : Fin 8) k f))
          (fun k f => WD (ix3 (⟨0, by decide⟩ : Fin 8) k f)) q := by
  rw [val_main_v34_apply]
  unfold Moe.expertOut
  refine Finset.sum_congr rfl fun f _ => ?_
  have el : lidx_main_v34 (ix2 r q) f = ix2 r f := funext fun a => Fin.ext (by
    match a with
    | ⟨0, _⟩ => rfl
    | ⟨1, _⟩ => rfl)
  have er : ridx_main_v34 (ix2 r q) f = ix2 f q := funext fun a => Fin.ext (by
    match a with
    | ⟨0, _⟩ => rfl
    | ⟨1, _⟩ => rfl)
  rw [el, er, h0, down0]

/-- The expert's weighted contribution: the token's combine weight for this expert times the expert's output. -/
theorem term0 (X : (⟨S2048x1024, .f32⟩ : BufTy).Contents (Elt Ideal)) (TW : (⟨S2048x2, .f32⟩ : BufTy).Contents (Elt Ideal)) (IDX : (⟨S2048x2, .i32⟩ : BufTy).Contents (Elt Ideal))
    (WG WU WD : (⟨S8x1024x1024, .f32⟩ : BufTy).Contents (Elt Ideal)) (r : Fin 2048) (q : Fin 1024) :
    val_main_v36 (F := Ideal) X TW IDX WG WU WD (ix2 r q)
      = val_main_v21 (F := Ideal) TW IDX (ix2 r (⟨0, by decide⟩ : Fin 8))
        * Moe.expertOut (fun k => X (ix2 r k)) (fun k f => WG (ix3 (⟨0, by decide⟩ : Fin 8) k f)) (fun k f => WU (ix3 (⟨0, by decide⟩ : Fin 8) k f))
            (fun k f => WD (ix3 (⟨0, by decide⟩ : Fin 8) k f)) q := by
  rw [val_main_v36_apply, val_main_v35_apply, val_main_v31_apply, y0]
  have ei : idx_main_v31 (idx_main_v35 (ix2 r q)) = ix2 r (⟨0, by decide⟩ : Fin 8) := funext fun a => Fin.ext (by
    match a with
    | ⟨0, _⟩ => rfl
    | ⟨1, _⟩ => rfl)
  rw [ei]
  rfl

end Cert.RefExpert

end
-- ==== Proof.RefExpert1.lean ====
/-
  Expert 1 in the reference program, read at an index: its three matrices cut out of the stacks, the two
  projections of a token's row, the gated hidden activation (the reference spells the logistic function as
  1 / (1 + exp(-g))), the output projection, and the product with the token's combine weight for this expert.
-/
import proofs.«104262_g66563403153436_cont_9to1_m_1368_2_alg».proof.Proof.Gen.ReferenceIdeal.Read
import proofs.«104262_g66563403153436_cont_9to1_m_1368_2_alg».proof.Proof.MoeSpec
import Idealize.ShloMosaic.Lib.IdealHost

noncomputable section

namespace Cert.RefExpert

open Cert.ReferenceIdeal Cert.ReferenceIdeal.Read Idealize.ShloMosaic Idealize.ShloMosaic.ValueIdx

/-- The expert's matrix, cut out of the stack and flattened, read at an index. -/
theorem gate1 (W : (⟨S8x1024x1024, .f32⟩ : BufTy).Contents (Elt Ideal)) (k f : Fin 1024) :
    val_main_v39 (F := Ideal) W (ix2 k f) = W (ix3 (⟨1, by decide⟩ : Fin 8) k f) := by
  rw [val_main_v39_apply, val_main_v38_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- The expert's matrix, cut out of the stack and flattened, read at an index. -/
theorem up1 (W : (⟨S8x1024x1024, .f32⟩ : BufTy).Contents (Elt Ideal)) (k f : Fin 1024) :
    val_main_v43 (F := Ideal) W (ix2 k f) = W (ix3 (⟨1, by decide⟩ : Fin 8) k f) := by
  rw [val_main_v43_apply, val_main_v42_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- The expert's matrix, cut out of the stack and flattened, read at an index. -/
theorem down1 (W : (⟨S8x1024x1024, .f32⟩ : BufTy).Contents (Elt Ideal)) (k f : Fin 1024) :
    val_main_v48 (F := Ideal) W (ix2 k f) = W (ix3 (⟨1, by decide⟩ : Fin 8) k f) := by
  rw [val_main_v48_apply, val_main_v47_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- A token's row against a column of the expert's matrix. -/
theorem g1 (X : (⟨S2048x1024, .f32⟩ : BufTy).Contents (Elt Ideal)) (W : (⟨S8x1024x1024, .f32⟩ : BufTy).Contents (Elt Ideal)) (r : Fin 2048) (f : Fin 1024) :
    val_main_v40 (F := Ideal) X W (ix2 r f) = Moe.proj (fun k => X (ix2 r k)) (fun k f => W (ix3 (⟨1, by decide⟩ : Fin 8) k f)) f := by
  rw [val_main_v40_apply]
  unfold Moe.proj
  refine Finset.sum_congr rfl fun k _ => ?_
  have el : lidx_main_v40 (ix2 r f) k = ix2 r k := funext fun a => Fin.ext (by
    match a with
    | ⟨0, _⟩ => rfl
    | ⟨1, _⟩ => rfl)
  have er : ridx_main_v40 (ix2 r f) k = ix2 k f := funext fun a => Fin.ext (by
    match a with
    | ⟨0, _⟩ => rfl
    | ⟨1, _⟩ => rfl)
  rw [el, er, gate1]

/-- A token's row against a column of the expert's matrix. -/
theorem u1 (X : (⟨S2048x1024, .f32⟩ : BufTy).Contents (Elt Ideal)) (W : (⟨S8x1024x1024, .f32⟩ : BufTy).Contents (Elt Ideal)) (r : Fin 2048) (f : Fin 1024) :
    val_main_v44 (F := Ideal) X W (ix2 r f) = Moe.proj (fun k => X (ix2 r k)) (fun k f => W (ix3 (⟨1, by decide⟩ : Fin 8) k f)) f := by
  rw [val_main_v44_apply]
  unfold Moe.proj
  refine Finset.sum_congr rfl fun k _ => ?_
  have el : lidx_main_v44 (ix2 r f) k = ix2 r k := funext fun a => Fin.ext (by
    match a with
    | ⟨0, _⟩ => rfl
    | ⟨1, _⟩ => rfl)
  have er : ridx_main_v44 (ix2 r f) k = ix2 k f := funext fun a => Fin.ext (by
    match a with
    | ⟨0, _⟩ => rfl
    | ⟨1, _⟩ => rfl)
  rw [el, er, up1]

/-- The gated hidden activation `g · σ(g) · u`. -/
theorem h1 (X : (⟨S2048x1024, .f32⟩ : BufTy).Contents (Elt Ideal)) (WG WU : (⟨S8x1024x1024, .f32⟩ : BufTy).Contents (Elt Ideal)) (r : Fin 2048) (f : Fin 1024) :
    val_main_v45 (F := Ideal) X WG WU (ix2 r f)
      = Moe.hidden (fun k => X (ix2 r k)) (fun k f => WG (ix3 (⟨1, by decide⟩ : Fin 8) k f)) (fun k f => WU (ix3 (⟨1, by decide⟩ : Fin 8) k f)) f := by
  rw [val_main_v45_apply, val_main_v41_apply, val_main_call1_v5_apply, val_main_call1_v4_apply, val_main_call1_cst_0_apply,
    val_main_call1_v3_apply, val_main_call1_v2_apply, val_main_call1_cst_apply, val_main_call1_v1_apply, val_main_call1_v0_apply,
    g1, u1]
  simp only [Ideal.ofBits_def, Ideal.ofBits_one_f32]
  rfl

/-- The expert's output for a token. -/
theorem y1 (X : (⟨S2048x1024, .f32⟩ : BufTy).Contents (Elt Ideal)) (WG WU WD : (⟨S8x1024x1024, .f32⟩ : BufTy).Contents (Elt Ideal)) (r : Fin 2048) (q : Fin 1024) :
    val_main_v49 (F := Ideal) X WG WU WD (ix2 r q)
      = Moe.expertOut (fun k => X (ix2 r k)) (fun k f => WG (ix3 (⟨1, by decide⟩ : Fin 8) k f)) (fun k f => WU (ix3 (⟨1, by decide⟩ : Fin 8) k f))
          (fun k f => WD (ix3 (⟨1, by decide⟩ : Fin 8) k f)) q := by
  rw [val_main_v49_apply]
  unfold Moe.expertOut
  refine Finset.sum_congr rfl fun f _ => ?_
  have el : lidx_main_v49 (ix2 r q) f = ix2 r f := funext fun a => Fin.ext (by
    match a with
    | ⟨0, _⟩ => rfl
    | ⟨1, _⟩ => rfl)
  have er : ridx_main_v49 (ix2 r q) f = ix2 f q := funext fun a => Fin.ext (by
    match a with
    | ⟨0, _⟩ => rfl
    | ⟨1, _⟩ => rfl)
  rw [el, er, h1, down1]

/-- The expert's weighted contribution: the token's combine weight for this expert times the expert's output. -/
theorem term1 (X : (⟨S2048x1024, .f32⟩ : BufTy).Contents (Elt Ideal)) (TW : (⟨S2048x2, .f32⟩ : BufTy).Contents (Elt Ideal)) (IDX : (⟨S2048x2, .i32⟩ : BufTy).Contents (Elt Ideal))
    (WG WU WD : (⟨S8x1024x1024, .f32⟩ : BufTy).Contents (Elt Ideal)) (r : Fin 2048) (q : Fin 1024) :
    val_main_v51 (F := Ideal) X TW IDX WG WU WD (ix2 r q)
      = val_main_v21 (F := Ideal) TW IDX (ix2 r (⟨1, by decide⟩ : Fin 8))
        * Moe.expertOut (fun k => X (ix2 r k)) (fun k f => WG (ix3 (⟨1, by decide⟩ : Fin 8) k f)) (fun k f => WU (ix3 (⟨1, by decide⟩ : Fin 8) k f))
            (fun k f => WD (ix3 (⟨1, by decide⟩ : Fin 8) k f)) q := by
  rw [val_main_v51_apply, val_main_v50_apply, val_main_v46_apply, y1]
  have ei : idx_main_v46 (idx_main_v50 (ix2 r q)) = ix2 r (⟨1, by decide⟩ : Fin 8) := funext fun a => Fin.ext (by
    match a with
    | ⟨0, _⟩ => rfl
    | ⟨1, _⟩ => rfl)
  rw [ei]
  rfl

end Cert.RefExpert

end
-- ==== Proof.RefExpert2.lean ====
/-
  Expert 2 in the reference program, read at an index: its three matrices cut out of the stacks, the two
  projections of a token's row, the gated hidden activation (the reference spells the logistic function as
  1 / (1 + exp(-g))), the output projection, and the product with the token's combine weight for this expert.
-/
import proofs.«104262_g66563403153436_cont_9to1_m_1368_2_alg».proof.Proof.Gen.ReferenceIdeal.Read
import proofs.«104262_g66563403153436_cont_9to1_m_1368_2_alg».proof.Proof.MoeSpec
import Idealize.ShloMosaic.Lib.IdealHost

noncomputable section

namespace Cert.RefExpert

open Cert.ReferenceIdeal Cert.ReferenceIdeal.Read Idealize.ShloMosaic Idealize.ShloMosaic.ValueIdx

/-- The expert's matrix, cut out of the stack and flattened, read at an index. -/
theorem gate2 (W : (⟨S8x1024x1024, .f32⟩ : BufTy).Contents (Elt Ideal)) (k f : Fin 1024) :
    val_main_v54 (F := Ideal) W (ix2 k f) = W (ix3 (⟨2, by decide⟩ : Fin 8) k f) := by
  rw [val_main_v54_apply, val_main_v53_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- The expert's matrix, cut out of the stack and flattened, read at an index. -/
theorem up2 (W : (⟨S8x1024x1024, .f32⟩ : BufTy).Contents (Elt Ideal)) (k f : Fin 1024) :
    val_main_v58 (F := Ideal) W (ix2 k f) = W (ix3 (⟨2, by decide⟩ : Fin 8) k f) := by
  rw [val_main_v58_apply, val_main_v57_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- The expert's matrix, cut out of the stack and flattened, read at an index. -/
theorem down2 (W : (⟨S8x1024x1024, .f32⟩ : BufTy).Contents (Elt Ideal)) (k f : Fin 1024) :
    val_main_v63 (F := Ideal) W (ix2 k f) = W (ix3 (⟨2, by decide⟩ : Fin 8) k f) := by
  rw [val_main_v63_apply, val_main_v62_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- A token's row against a column of the expert's matrix. -/
theorem g2 (X : (⟨S2048x1024, .f32⟩ : BufTy).Contents (Elt Ideal)) (W : (⟨S8x1024x1024, .f32⟩ : BufTy).Contents (Elt Ideal)) (r : Fin 2048) (f : Fin 1024) :
    val_main_v55 (F := Ideal) X W (ix2 r f) = Moe.proj (fun k => X (ix2 r k)) (fun k f => W (ix3 (⟨2, by decide⟩ : Fin 8) k f)) f := by
  rw [val_main_v55_apply]
  unfold Moe.proj
  refine Finset.sum_congr rfl fun k _ => ?_
  have el : lidx_main_v55 (ix2 r f) k = ix2 r k := funext fun a => Fin.ext (by
    match a with
    | ⟨0, _⟩ => rfl
    | ⟨1, _⟩ => rfl)
  have er : ridx_main_v55 (ix2 r f) k = ix2 k f := funext fun a => Fin.ext (by
    match a with
    | ⟨0, _⟩ => rfl
    | ⟨1, _⟩ => rfl)
  rw [el, er, gate2]

/-- A token's row against a column of the expert's matrix. -/
theorem u2 (X : (⟨S2048x1024, .f32⟩ : BufTy).Contents (Elt Ideal)) (W : (⟨S8x1024x1024, .f32⟩ : BufTy).Contents (Elt Ideal)) (r : Fin 2048) (f : Fin 1024) :
    val_main_v59 (F := Ideal) X W (ix2 r f) = Moe.proj (fun k => X (ix2 r k)) (fun k f => W (ix3 (⟨2, by decide⟩ : Fin 8) k f)) f := by
  rw [val_main_v59_apply]
  unfold Moe.proj
  refine Finset.sum_congr rfl fun k _ => ?_
  have el : lidx_main_v59 (ix2 r f) k = ix2 r k := funext fun a => Fin.ext (by
    match a with
    | ⟨0, _⟩ => rfl
    | ⟨1, _⟩ => rfl)
  have er : ridx_main_v59 (ix2 r f) k = ix2 k f := funext fun a => Fin.ext (by
    match a with
    | ⟨0, _⟩ => rfl
    | ⟨1, _⟩ => rfl)
  rw [el, er, up2]

/-- The gated hidden activation `g · σ(g) · u`. -/
theorem h2 (X : (⟨S2048x1024, .f32⟩ : BufTy).Contents (Elt Ideal)) (WG WU : (⟨S8x1024x1024, .f32⟩ : BufTy).Contents (Elt Ideal)) (r : Fin 2048) (f : Fin 1024) :
    val_main_v60 (F := Ideal) X WG WU (ix2 r f)
      = Moe.hidden (fun k => X (ix2 r k)) (fun k f => WG (ix3 (⟨2, by decide⟩ : Fin 8) k f)) (fun k f => WU (ix3 (⟨2, by decide⟩ : Fin 8) k f)) f := by
  rw [val_main_v60_apply, val_main_v56_apply, val_main_call2_v5_apply, val_main_call2_v4_apply, val_main_call2_cst_0_apply,
    val_main_call2_v3_apply, val_main_call2_v2_apply, val_main_call2_cst_apply, val_main_call2_v1_apply, val_main_call2_v0_apply,
    g2, u2]
  simp only [Ideal.ofBits_def, Ideal.ofBits_one_f32]
  rfl

/-- The expert's output for a token. -/
theorem y2 (X : (⟨S2048x1024, .f32⟩ : BufTy).Contents (Elt Ideal)) (WG WU WD : (⟨S8x1024x1024, .f32⟩ : BufTy).Contents (Elt Ideal)) (r : Fin 2048) (q : Fin 1024) :
    val_main_v64 (F := Ideal) X WG WU WD (ix2 r q)
      = Moe.expertOut (fun k => X (ix2 r k)) (fun k f => WG (ix3 (⟨2, by decide⟩ : Fin 8) k f)) (fun k f => WU (ix3 (⟨2, by decide⟩ : Fin 8) k f))
          (fun k f => WD (ix3 (⟨2, by decide⟩ : Fin 8) k f)) q := by
  rw [val_main_v64_apply]
  unfold Moe.expertOut
  refine Finset.sum_congr rfl fun f _ => ?_
  have el : lidx_main_v64 (ix2 r q) f = ix2 r f := funext fun a => Fin.ext (by
    match a with
    | ⟨0, _⟩ => rfl
    | ⟨1, _⟩ => rfl)
  have er : ridx_main_v64 (ix2 r q) f = ix2 f q := funext fun a => Fin.ext (by
    match a with
    | ⟨0, _⟩ => rfl
    | ⟨1, _⟩ => rfl)
  rw [el, er, h2, down2]

/-- The expert's weighted contribution: the token's combine weight for this expert times the expert's output. -/
theorem term2 (X : (⟨S2048x1024, .f32⟩ : BufTy).Contents (Elt Ideal)) (TW : (⟨S2048x2, .f32⟩ : BufTy).Contents (Elt Ideal)) (IDX : (⟨S2048x2, .i32⟩ : BufTy).Contents (Elt Ideal))
    (WG WU WD : (⟨S8x1024x1024, .f32⟩ : BufTy).Contents (Elt Ideal)) (r : Fin 2048) (q : Fin 1024) :
    val_main_v66 (F := Ideal) X TW IDX WG WU WD (ix2 r q)
      = val_main_v21 (F := Ideal) TW IDX (ix2 r (⟨2, by decide⟩ : Fin 8))
        * Moe.expertOut (fun k => X (ix2 r k)) (fun k f => WG (ix3 (⟨2, by decide⟩ : Fin 8) k f)) (fun k f => WU (ix3 (⟨2, by decide⟩ : Fin 8) k f))
            (fun k f => WD (ix3 (⟨2, by decide⟩ : Fin 8) k f)) q := by
  rw [val_main_v66_apply, val_main_v65_apply, val_main_v61_apply, y2]
  have ei : idx_main_v61 (idx_main_v65 (ix2 r q)) = ix2 r (⟨2, by decide⟩ : Fin 8) := funext fun a => Fin.ext (by
    match a with
    | ⟨0, _⟩ => rfl
    | ⟨1, _⟩ => rfl)
  rw [ei]
  rfl

end Cert.RefExpert

end
-- ==== Proof.RefExpert3.lean ====
/-
  Expert 3 in the reference program, read at an index: its three matrices cut out of the stacks, the two
  projections of a token's row, the gated hidden activation (the reference spells the logistic function as
  1 / (1 + exp(-g))), the output projection, and the product with the token's combine weight for this expert.
-/
import proofs.«104262_g66563403153436_cont_9to1_m_1368_2_alg».proof.Proof.Gen.ReferenceIdeal.Read
import proofs.«104262_g66563403153436_cont_9to1_m_1368_2_alg».proof.Proof.MoeSpec
import Idealize.ShloMosaic.Lib.IdealHost

noncomputable section

namespace Cert.RefExpert

open Cert.ReferenceIdeal Cert.ReferenceIdeal.Read Idealize.ShloMosaic Idealize.ShloMosaic.ValueIdx

/-- The expert's matrix, cut out of the stack and flattened, read at an index. -/
theorem gate3 (W : (⟨S8x1024x1024, .f32⟩ : BufTy).Contents (Elt Ideal)) (k f : Fin 1024) :
    val_main_v69 (F := Ideal) W (ix2 k f) = W (ix3 (⟨3, by decide⟩ : Fin 8) k f) := by
  rw [val_main_v69_apply, val_main_v68_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- The expert's matrix, cut out of the stack and flattened, read at an index. -/
theorem up3 (W : (⟨S8x1024x1024, .f32⟩ : BufTy).Contents (Elt Ideal)) (k f : Fin 1024) :
    val_main_v73 (F := Ideal) W (ix2 k f) = W (ix3 (⟨3, by decide⟩ : Fin 8) k f) := by
  rw [val_main_v73_apply, val_main_v72_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- The expert's matrix, cut out of the stack and flattened, read at an index. -/
theorem down3 (W : (⟨S8x1024x1024, .f32⟩ : BufTy).Contents (Elt Ideal)) (k f : Fin 1024) :
    val_main_v78 (F := Ideal) W (ix2 k f) = W (ix3 (⟨3, by decide⟩ : Fin 8) k f) := by
  rw [val_main_v78_apply, val_main_v77_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- A token's row against a column of the expert's matrix. -/
theorem g3 (X : (⟨S2048x1024, .f32⟩ : BufTy).Contents (Elt Ideal)) (W : (⟨S8x1024x1024, .f32⟩ : BufTy).Contents (Elt Ideal)) (r : Fin 2048) (f : Fin 1024) :
    val_main_v70 (F := Ideal) X W (ix2 r f) = Moe.proj (fun k => X (ix2 r k)) (fun k f => W (ix3 (⟨3, by decide⟩ : Fin 8) k f)) f := by
  rw [val_main_v70_apply]
  unfold Moe.proj
  refine Finset.sum_congr rfl fun k _ => ?_
  have el : lidx_main_v70 (ix2 r f) k = ix2 r k := funext fun a => Fin.ext (by
    match a with
    | ⟨0, _⟩ => rfl
    | ⟨1, _⟩ => rfl)
  have er : ridx_main_v70 (ix2 r f) k = ix2 k f := funext fun a => Fin.ext (by
    match a with
    | ⟨0, _⟩ => rfl
    | ⟨1, _⟩ => rfl)
  rw [el, er, gate3]

/-- A token's row against a column of the expert's matrix. -/
theorem u3 (X : (⟨S2048x1024, .f32⟩ : BufTy).Contents (Elt Ideal)) (W : (⟨S8x1024x1024, .f32⟩ : BufTy).Contents (Elt Ideal)) (r : Fin 2048) (f : Fin 1024) :
    val_main_v74 (F := Ideal) X W (ix2 r f) = Moe.proj (fun k => X (ix2 r k)) (fun k f => W (ix3 (⟨3, by decide⟩ : Fin 8) k f)) f := by
  rw [val_main_v74_apply]
  unfold Moe.proj
  refine Finset.sum_congr rfl fun k _ => ?_
  have el : lidx_main_v74 (ix2 r f) k = ix2 r k := funext fun a => Fin.ext (by
    match a with
    | ⟨0, _⟩ => rfl
    | ⟨1, _⟩ => rfl)
  have er : ridx_main_v74 (ix2 r f) k = ix2 k f := funext fun a => Fin.ext (by
    match a with
    | ⟨0, _⟩ => rfl
    | ⟨1, _⟩ => rfl)
  rw [el, er, up3]

/-- The gated hidden activation `g · σ(g) · u`. -/
theorem h3 (X : (⟨S2048x1024, .f32⟩ : BufTy).Contents (Elt Ideal)) (WG WU : (⟨S8x1024x1024, .f32⟩ : BufTy).Contents (Elt Ideal)) (r : Fin 2048) (f : Fin 1024) :
    val_main_v75 (F := Ideal) X WG WU (ix2 r f)
      = Moe.hidden (fun k => X (ix2 r k)) (fun k f => WG (ix3 (⟨3, by decide⟩ : Fin 8) k f)) (fun k f => WU (ix3 (⟨3, by decide⟩ : Fin 8) k f)) f := by
  rw [val_main_v75_apply, val_main_v71_apply, val_main_call3_v5_apply, val_main_call3_v4_apply, val_main_call3_cst_0_apply,
    val_main_call3_v3_apply, val_main_call3_v2_apply, val_main_call3_cst_apply, val_main_call3_v1_apply, val_main_call3_v0_apply,
    g3, u3]
  simp only [Ideal.ofBits_def, Ideal.ofBits_one_f32]
  rfl

/-- The expert's output for a token. -/
theorem y3 (X : (⟨S2048x1024, .f32⟩ : BufTy).Contents (Elt Ideal)) (WG WU WD : (⟨S8x1024x1024, .f32⟩ : BufTy).Contents (Elt Ideal)) (r : Fin 2048) (q : Fin 1024) :
    val_main_v79 (F := Ideal) X WG WU WD (ix2 r q)
      = Moe.expertOut (fun k => X (ix2 r k)) (fun k f => WG (ix3 (⟨3, by decide⟩ : Fin 8) k f)) (fun k f => WU (ix3 (⟨3, by decide⟩ : Fin 8) k f))
          (fun k f => WD (ix3 (⟨3, by decide⟩ : Fin 8) k f)) q := by
  rw [val_main_v79_apply]
  unfold Moe.expertOut
  refine Finset.sum_congr rfl fun f _ => ?_
  have el : lidx_main_v79 (ix2 r q) f = ix2 r f := funext fun a => Fin.ext (by
    match a with
    | ⟨0, _⟩ => rfl
    | ⟨1, _⟩ => rfl)
  have er : ridx_main_v79 (ix2 r q) f = ix2 f q := funext fun a => Fin.ext (by
    match a with
    | ⟨0, _⟩ => rfl
    | ⟨1, _⟩ => rfl)
  rw [el, er, h3, down3]

/-- The expert's weighted contribution: the token's combine weight for this expert times the expert's output. -/
theorem term3 (X : (⟨S2048x1024, .f32⟩ : BufTy).Contents (Elt Ideal)) (TW : (⟨S2048x2, .f32⟩ : BufTy).Contents (Elt Ideal)) (IDX : (⟨S2048x2, .i32⟩ : BufTy).Contents (Elt Ideal))
    (WG WU WD : (⟨S8x1024x1024, .f32⟩ : BufTy).Contents (Elt Ideal)) (r : Fin 2048) (q : Fin 1024) :
    val_main_v81 (F := Ideal) X TW IDX WG WU WD (ix2 r q)
      = val_main_v21 (F := Ideal) TW IDX (ix2 r (⟨3, by decide⟩ : Fin 8))
        * Moe.expertOut (fun k => X (ix2 r k)) (fun k f => WG (ix3 (⟨3, by decide⟩ : Fin 8) k f)) (fun k f => WU (ix3 (⟨3, by decide⟩ : Fin 8) k f))
            (fun k f => WD (ix3 (⟨3, by decide⟩ : Fin 8) k f)) q := by
  rw [val_main_v81_apply, val_main_v80_apply, val_main_v76_apply, y3]
  have ei : idx_main_v76 (idx_main_v80 (ix2 r q)) = ix2 r (⟨3, by decide⟩ : Fin 8) := funext fun a => Fin.ext (by
    match a with
    | ⟨0, _⟩ => rfl
    | ⟨1, _⟩ => rfl)
  rw [ei]
  rfl

end Cert.RefExpert

end
-- ==== Proof.RefExpert4.lean ====
/-
  Expert 4 in the reference program, read at an index: its three matrices cut out of the stacks, the two
  projections of a token's row, the gated hidden activation (the reference spells the logistic function as
  1 / (1 + exp(-g))), the output projection, and the product with the token's combine weight for this expert.
-/
import proofs.«104262_g66563403153436_cont_9to1_m_1368_2_alg».proof.Proof.Gen.ReferenceIdeal.Read
import proofs.«104262_g66563403153436_cont_9to1_m_1368_2_alg».proof.Proof.MoeSpec
import Idealize.ShloMosaic.Lib.IdealHost

noncomputable section

namespace Cert.RefExpert

open Cert.ReferenceIdeal Cert.ReferenceIdeal.Read Idealize.ShloMosaic Idealize.ShloMosaic.ValueIdx

/-- The expert's matrix, cut out of the stack and flattened, read at an index. -/
theorem gate4 (W : (⟨S8x1024x1024, .f32⟩ : BufTy).Contents (Elt Ideal)) (k f : Fin 1024) :
    val_main_v84 (F := Ideal) W (ix2 k f) = W (ix3 (⟨4, by decide⟩ : Fin 8) k f) := by
  rw [val_main_v84_apply, val_main_v83_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- The expert's matrix, cut out of the stack and flattened, read at an index. -/
theorem up4 (W : (⟨S8x1024x1024, .f32⟩ : BufTy).Contents (Elt Ideal)) (k f : Fin 1024) :
    val_main_v88 (F := Ideal) W (ix2 k f) = W (ix3 (⟨4, by decide⟩ : Fin 8) k f) := by
  rw [val_main_v88_apply, val_main_v87_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- The expert's matrix, cut out of the stack and flattened, read at an index. -/
theorem down4 (W : (⟨S8x1024x1024, .f32⟩ : BufTy).Contents (Elt Ideal)) (k f : Fin 1024) :
    val_main_v93 (F := Ideal) W (ix2 k f) = W (ix3 (⟨4, by decide⟩ : Fin 8) k f) := by
  rw [val_main_v93_apply, val_main_v92_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- A token's row against a column of the expert's matrix. -/
theorem g4 (X : (⟨S2048x1024, .f32⟩ : BufTy).Contents (Elt Ideal)) (W : (⟨S8x1024x1024, .f32⟩ : BufTy).Contents (Elt Ideal)) (r : Fin 2048) (f : Fin 1024) :
    val_main_v85 (F := Ideal) X W (ix2 r f) = Moe.proj (fun k => X (ix2 r k)) (fun k f => W (ix3 (⟨4, by decide⟩ : Fin 8) k f)) f := by
  rw [val_main_v85_apply]
  unfold Moe.proj
  refine Finset.sum_congr rfl fun k _ => ?_
  have el : lidx_main_v85 (ix2 r f) k = ix2 r k := funext fun a => Fin.ext (by
    match a with
    | ⟨0, _⟩ => rfl
    | ⟨1, _⟩ => rfl)
  have er : ridx_main_v85 (ix2 r f) k = ix2 k f := funext fun a => Fin.ext (by
    match a with
    | ⟨0, _⟩ => rfl
    | ⟨1, _⟩ => rfl)
  rw [el, er, gate4]

/-- A token's row against a column of the expert's matrix. -/
theorem u4 (X : (⟨S2048x1024, .f32⟩ : BufTy).Contents (Elt Ideal)) (W : (⟨S8x1024x1024, .f32⟩ : BufTy).Contents (Elt Ideal)) (r : Fin 2048) (f : Fin 1024) :
    val_main_v89 (F := Ideal) X W (ix2 r f) = Moe.proj (fun k => X (ix2 r k)) (fun k f => W (ix3 (⟨4, by decide⟩ : Fin 8) k f)) f := by
  rw [val_main_v89_apply]
  unfold Moe.proj
  refine Finset.sum_congr rfl fun k _ => ?_
  have el : lidx_main_v89 (ix2 r f) k = ix2 r k := funext fun a => Fin.ext (by
    match a with
    | ⟨0, _⟩ => rfl
    | ⟨1, _⟩ => rfl)
  have er : ridx_main_v89 (ix2 r f) k = ix2 k f := funext fun a => Fin.ext (by
    match a with
    | ⟨0, _⟩ => rfl
    | ⟨1, _⟩ => rfl)
  rw [el, er, up4]

/-- The gated hidden activation `g · σ(g) · u`. -/
theorem h4 (X : (⟨S2048x1024, .f32⟩ : BufTy).Contents (Elt Ideal)) (WG WU : (⟨S8x1024x1024, .f32⟩ : BufTy).Contents (Elt Ideal)) (r : Fin 2048) (f : Fin 1024) :
    val_main_v90 (F := Ideal) X WG WU (ix2 r f)
      = Moe.hidden (fun k => X (ix2 r k)) (fun k f => WG (ix3 (⟨4, by decide⟩ : Fin 8) k f)) (fun k f => WU (ix3 (⟨4, by decide⟩ : Fin 8) k f)) f := by
  rw [val_main_v90_apply, val_main_v86_apply, val_main_call4_v5_apply, val_main_call4_v4_apply, val_main_call4_cst_0_apply,
    val_main_call4_v3_apply, val_main_call4_v2_apply, val_main_call4_cst_apply, val_main_call4_v1_apply, val_main_call4_v0_apply,
    g4, u4]
  simp only [Ideal.ofBits_def, Ideal.ofBits_one_f32]
  rfl

/-- The expert's output for a token. -/
theorem y4 (X : (⟨S2048x1024, .f32⟩ : BufTy).Contents (Elt Ideal)) (WG WU WD : (⟨S8x1024x1024, .f32⟩ : BufTy).Contents (Elt Ideal)) (r : Fin 2048) (q : Fin 1024) :
    val_main_v94 (F := Ideal) X WG WU WD (ix2 r q)
      = Moe.expertOut (fun k => X (ix2 r k)) (fun k f => WG (ix3 (⟨4, by decide⟩ : Fin 8) k f)) (fun k f => WU (ix3 (⟨4, by decide⟩ : Fin 8) k f))
          (fun k f => WD (ix3 (⟨4, by decide⟩ : Fin 8) k f)) q := by
  rw [val_main_v94_apply]
  unfold Moe.expertOut
  refine Finset.sum_congr rfl fun f _ => ?_
  have el : lidx_main_v94 (ix2 r q) f = ix2 r f := funext fun a => Fin.ext (by
    match a with
    | ⟨0, _⟩ => rfl
    | ⟨1, _⟩ => rfl)
  have er : ridx_main_v94 (ix2 r q) f = ix2 f q := funext fun a => Fin.ext (by
    match a with
    | ⟨0, _⟩ => rfl
    | ⟨1, _⟩ => rfl)
  rw [el, er, h4, down4]

/-- The expert's weighted contribution: the token's combine weight for this expert times the expert's output. -/
theorem term4 (X : (⟨S2048x1024, .f32⟩ : BufTy).Contents (Elt Ideal)) (TW : (⟨S2048x2, .f32⟩ : BufTy).Contents (Elt Ideal)) (IDX : (⟨S2048x2, .i32⟩ : BufTy).Contents (Elt Ideal))
    (WG WU WD : (⟨S8x1024x1024, .f32⟩ : BufTy).Contents (Elt Ideal)) (r : Fin 2048) (q : Fin 1024) :
    val_main_v96 (F := Ideal) X TW IDX WG WU WD (ix2 r q)
      = val_main_v21 (F := Ideal) TW IDX (ix2 r (⟨4, by decide⟩ : Fin 8))
        * Moe.expertOut (fun k => X (ix2 r k)) (fun k f => WG (ix3 (⟨4, by decide⟩ : Fin 8) k f)) (fun k f => WU (ix3 (⟨4, by decide⟩ : Fin 8) k f))
            (fun k f => WD (ix3 (⟨4, by decide⟩ : Fin 8) k f)) q := by
  rw [val_main_v96_apply, val_main_v95_apply, val_main_v91_apply, y4]
  have ei : idx_main_v91 (idx_main_v95 (ix2 r q)) = ix2 r (⟨4, by decide⟩ : Fin 8) := funext fun a => Fin.ext (by
    match a with
    | ⟨0, _⟩ => rfl
    | ⟨1, _⟩ => rfl)
  rw [ei]
  rfl

end Cert.RefExpert

end
-- ==== Proof.RefExpert5.lean ====
/-
  Expert 5 in the reference program, read at an index: its three matrices cut out of the stacks, the two
  projections of a token's row, the gated hidden activation (the reference spells the logistic function as
  1 / (1 + exp(-g))), the output projection, and the product with the token's combine weight for this expert.
-/
import proofs.«104262_g66563403153436_cont_9to1_m_1368_2_alg».proof.Proof.Gen.ReferenceIdeal.Read
import proofs.«104262_g66563403153436_cont_9to1_m_1368_2_alg».proof.Proof.MoeSpec
import Idealize.ShloMosaic.Lib.IdealHost

noncomputable section

namespace Cert.RefExpert

open Cert.ReferenceIdeal Cert.ReferenceIdeal.Read Idealize.ShloMosaic Idealize.ShloMosaic.ValueIdx

/-- The expert's matrix, cut out of the stack and flattened, read at an index. -/
theorem gate5 (W : (⟨S8x1024x1024, .f32⟩ : BufTy).Contents (Elt Ideal)) (k f : Fin 1024) :
    val_main_v99 (F := Ideal) W (ix2 k f) = W (ix3 (⟨5, by decide⟩ : Fin 8) k f) := by
  rw [val_main_v99_apply, val_main_v98_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- The expert's matrix, cut out of the stack and flattened, read at an index. -/
theorem up5 (W : (⟨S8x1024x1024, .f32⟩ : BufTy).Contents (Elt Ideal)) (k f : Fin 1024) :
    val_main_v103 (F := Ideal) W (ix2 k f) = W (ix3 (⟨5, by decide⟩ : Fin 8) k f) := by
  rw [val_main_v103_apply, val_main_v102_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- The expert's matrix, cut out of the stack and flattened, read at an index. -/
theorem down5 (W : (⟨S8x1024x1024, .f32⟩ : BufTy).Contents (Elt Ideal)) (k f : Fin 1024) :
    val_main_v108 (F := Ideal) W (ix2 k f) = W (ix3 (⟨5, by decide⟩ : Fin 8) k f) := by
  rw [val_main_v108_apply, val_main_v107_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- A token's row against a column of the expert's matrix. -/
theorem g5 (X : (⟨S2048x1024, .f32⟩ : BufTy).Contents (Elt Ideal)) (W : (⟨S8x1024x1024, .f32⟩ : BufTy).Contents (Elt Ideal)) (r : Fin 2048) (f : Fin 1024) :
    val_main_v100 (F := Ideal) X W (ix2 r f) = Moe.proj (fun k => X (ix2 r k)) (fun k f => W (ix3 (⟨5, by decide⟩ : Fin 8) k f)) f := by
  rw [val_main_v100_apply]
  unfold Moe.proj
  refine Finset.sum_congr rfl fun k _ => ?_
  have el : lidx_main_v100 (ix2 r f) k = ix2 r k := funext fun a => Fin.ext (by
    match a with
    | ⟨0, _⟩ => rfl
    | ⟨1, _⟩ => rfl)
  have er : ridx_main_v100 (ix2 r f) k = ix2 k f := funext fun a => Fin.ext (by
    match a with
    | ⟨0, _⟩ => rfl
    | ⟨1, _⟩ => rfl)
  rw [el, er, gate5]

/-- A token's row against a column of the expert's matrix. -/
theorem u5 (X : (⟨S2048x1024, .f32⟩ : BufTy).Contents (Elt Ideal)) (W : (⟨S8x1024x1024, .f32⟩ : BufTy).Contents (Elt Ideal)) (r : Fin 2048) (f : Fin 1024) :
    val_main_v104 (F := Ideal) X W (ix2 r f) = Moe.proj (fun k => X (ix2 r k)) (fun k f => W (ix3 (⟨5, by decide⟩ : Fin 8) k f)) f := by
  rw [val_main_v104_apply]
  unfold Moe.proj
  refine Finset.sum_congr rfl fun k _ => ?_
  have el : lidx_main_v104 (ix2 r f) k = ix2 r k := funext fun a => Fin.ext (by
    match a with
    | ⟨0, _⟩ => rfl
    | ⟨1, _⟩ => rfl)
  have er : ridx_main_v104 (ix2 r f) k = ix2 k f := funext fun a => Fin.ext (by
    match a with
    | ⟨0, _⟩ => rfl
    | ⟨1, _⟩ => rfl)
  rw [el, er, up5]

/-- The gated hidden activation `g · σ(g) · u`. -/
theorem h5 (X : (⟨S2048x1024, .f32⟩ : BufTy).Contents (Elt Ideal)) (WG WU : (⟨S8x1024x1024, .f32⟩ : BufTy).Contents (Elt Ideal)) (r : Fin 2048) (f : Fin 1024) :
    val_main_v105 (F := Ideal) X WG WU (ix2 r f)
      = Moe.hidden (fun k => X (ix2 r k)) (fun k f => WG (ix3 (⟨5, by decide⟩ : Fin 8) k f)) (fun k f => WU (ix3 (⟨5, by decide⟩ : Fin 8) k f)) f := by
  rw [val_main_v105_apply, val_main_v101_apply, val_main_call5_v5_apply, val_main_call5_v4_apply, val_main_call5_cst_0_apply,
    val_main_call5_v3_apply, val_main_call5_v2_apply, val_main_call5_cst_apply, val_main_call5_v1_apply, val_main_call5_v0_apply,
    g5, u5]
  simp only [Ideal.ofBits_def, Ideal.ofBits_one_f32]
  rfl

/-- The expert's output for a token. -/
theorem y5 (X : (⟨S2048x1024, .f32⟩ : BufTy).Contents (Elt Ideal)) (WG WU WD : (⟨S8x1024x1024, .f32⟩ : BufTy).Contents (Elt Ideal)) (r : Fin 2048) (q : Fin 1024) :
    val_main_v109 (F := Ideal) X WG WU WD (ix2 r q)
      = Moe.expertOut (fun k => X (ix2 r k)) (fun k f => WG (ix3 (⟨5, by decide⟩ : Fin 8) k f)) (fun k f => WU (ix3 (⟨5, by decide⟩ : Fin 8) k f))
          (fun k f => WD (ix3 (⟨5, by decide⟩ : Fin 8) k f)) q := by
  rw [val_main_v109_apply]
  unfold Moe.expertOut
  refine Finset.sum_congr rfl fun f _ => ?_
  have el : lidx_main_v109 (ix2 r q) f = ix2 r f := funext fun a => Fin.ext (by
    match a with
    | ⟨0, _⟩ => rfl
    | ⟨1, _⟩ => rfl)
  have er : ridx_main_v109 (ix2 r q) f = ix2 f q := funext fun a => Fin.ext (by
    match a with
    | ⟨0, _⟩ => rfl
    | ⟨1, _⟩ => rfl)
  rw [el, er, h5, down5]

/-- The expert's weighted contribution: the token's combine weight for this expert times the expert's output. -/
theorem term5 (X : (⟨S2048x1024, .f32⟩ : BufTy).Contents (Elt Ideal)) (TW : (⟨S2048x2, .f32⟩ : BufTy).Contents (Elt Ideal)) (IDX : (⟨S2048x2, .i32⟩ : BufTy).Contents (Elt Ideal))
    (WG WU WD : (⟨S8x1024x1024, .f32⟩ : BufTy).Contents (Elt Ideal)) (r : Fin 2048) (q : Fin 1024) :
    val_main_v111 (F := Ideal) X TW IDX WG WU WD (ix2 r q)
      = val_main_v21 (F := Ideal) TW IDX (ix2 r (⟨5, by decide⟩ : Fin 8))
        * Moe.expertOut (fun k => X (ix2 r k)) (fun k f => WG (ix3 (⟨5, by decide⟩ : Fin 8) k f)) (fun k f => WU (ix3 (⟨5, by decide⟩ : Fin 8) k f))
            (fun k f => WD (ix3 (⟨5, by decide⟩ : Fin 8) k f)) q := by
  rw [val_main_v111_apply, val_main_v110_apply, val_main_v106_apply, y5]
  have ei : idx_main_v106 (idx_main_v110 (ix2 r q)) = ix2 r (⟨5, by decide⟩ : Fin 8) := funext fun a => Fin.ext (by
    match a with
    | ⟨0, _⟩ => rfl
    | ⟨1, _⟩ => rfl)
  rw [ei]
  rfl

end Cert.RefExpert

end
-- ==== Proof.RefExpert6.lean ====
/-
  Expert 6 in the reference program, read at an index: its three matrices cut out of the stacks, the two
  projections of a token's row, the gated hidden activation (the reference spells the logistic function as
  1 / (1 + exp(-g))), the output projection, and the product with the token's combine weight for this expert.
-/
import proofs.«104262_g66563403153436_cont_9to1_m_1368_2_alg».proof.Proof.Gen.ReferenceIdeal.Read
import proofs.«104262_g66563403153436_cont_9to1_m_1368_2_alg».proof.Proof.MoeSpec
import Idealize.ShloMosaic.Lib.IdealHost

noncomputable section

namespace Cert.RefExpert

open Cert.ReferenceIdeal Cert.ReferenceIdeal.Read Idealize.ShloMosaic Idealize.ShloMosaic.ValueIdx

/-- The expert's matrix, cut out of the stack and flattened, read at an index. -/
theorem gate6 (W : (⟨S8x1024x1024, .f32⟩ : BufTy).Contents (Elt Ideal)) (k f : Fin 1024) :
    val_main_v114 (F := Ideal) W (ix2 k f) = W (ix3 (⟨6, by decide⟩ : Fin 8) k f) := by
  rw [val_main_v114_apply, val_main_v113_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- The expert's matrix, cut out of the stack and flattened, read at an index. -/
theorem up6 (W : (⟨S8x1024x1024, .f32⟩ : BufTy).Contents (Elt Ideal)) (k f : Fin 1024) :
    val_main_v118 (F := Ideal) W (ix2 k f) = W (ix3 (⟨6, by decide⟩ : Fin 8) k f) := by
  rw [val_main_v118_apply, val_main_v117_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- The expert's matrix, cut out of the stack and flattened, read at an index. -/
theorem down6 (W : (⟨S8x1024x1024, .f32⟩ : BufTy).Contents (Elt Ideal)) (k f : Fin 1024) :
    val_main_v123 (F := Ideal) W (ix2 k f) = W (ix3 (⟨6, by decide⟩ : Fin 8) k f) := by
  rw [val_main_v123_apply, val_main_v122_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- A token's row against a column of the expert's matrix. -/
theorem g6 (X : (⟨S2048x1024, .f32⟩ : BufTy).Contents (Elt Ideal)) (W : (⟨S8x1024x1024, .f32⟩ : BufTy).Contents (Elt Ideal)) (r : Fin 2048) (f : Fin 1024) :
    val_main_v115 (F := Ideal) X W (ix2 r f) = Moe.proj (fun k => X (ix2 r k)) (fun k f => W (ix3 (⟨6, by decide⟩ : Fin 8) k f)) f := by
  rw [val_main_v115_apply]
  unfold Moe.proj
  refine Finset.sum_congr rfl fun k _ => ?_
  have el : lidx_main_v115 (ix2 r f) k = ix2 r k := funext fun a => Fin.ext (by
    match a with
    | ⟨0, _⟩ => rfl
    | ⟨1, _⟩ => rfl)
  have er : ridx_main_v115 (ix2 r f) k = ix2 k f := funext fun a => Fin.ext (by
    match a with
    | ⟨0, _⟩ => rfl
    | ⟨1, _⟩ => rfl)
  rw [el, er, gate6]

/-- A token's row against a column of the expert's matrix. -/
theorem u6 (X : (⟨S2048x1024, .f32⟩ : BufTy).Contents (Elt Ideal)) (W : (⟨S8x1024x1024, .f32⟩ : BufTy).Contents (Elt Ideal)) (r : Fin 2048) (f : Fin 1024) :
    val_main_v119 (F := Ideal) X W (ix2 r f) = Moe.proj (fun k => X (ix2 r k)) (fun k f => W (ix3 (⟨6, by decide⟩ : Fin 8) k f)) f := by
  rw [val_main_v119_apply]
  unfold Moe.proj
  refine Finset.sum_congr rfl fun k _ => ?_
  have el : lidx_main_v119 (ix2 r f) k = ix2 r k := funext fun a => Fin.ext (by
    match a with
    | ⟨0, _⟩ => rfl
    | ⟨1, _⟩ => rfl)
  have er : ridx_main_v119 (ix2 r f) k = ix2 k f := funext fun a => Fin.ext (by
    match a with
    | ⟨0, _⟩ => rfl
    | ⟨1, _⟩ => rfl)
  rw [el, er, up6]

/-- The gated hidden activation `g · σ(g) · u`. -/
theorem h6 (X : (⟨S2048x1024, .f32⟩ : BufTy).Contents (Elt Ideal)) (WG WU : (⟨S8x1024x1024, .f32⟩ : BufTy).Contents (Elt Ideal)) (r : Fin 2048) (f : Fin 1024) :
    val_main_v120 (F := Ideal) X WG WU (ix2 r f)
      = Moe.hidden (fun k => X (ix2 r k)) (fun k f => WG (ix3 (⟨6, by decide⟩ : Fin 8) k f)) (fun k f => WU (ix3 (⟨6, by decide⟩ : Fin 8) k f)) f := by
  rw [val_main_v120_apply, val_main_v116_apply, val_main_call6_v5_apply, val_main_call6_v4_apply, val_main_call6_cst_0_apply,
    val_main_call6_v3_apply, val_main_call6_v2_apply, val_main_call6_cst_apply, val_main_call6_v1_apply, val_main_call6_v0_apply,
    g6, u6]
  simp only [Ideal.ofBits_def, Ideal.ofBits_one_f32]
  rfl

/-- The expert's output for a token. -/
theorem y6 (X : (⟨S2048x1024, .f32⟩ : BufTy).Contents (Elt Ideal)) (WG WU WD : (⟨S8x1024x1024, .f32⟩ : BufTy).Contents (Elt Ideal)) (r : Fin 2048) (q : Fin 1024) :
    val_main_v124 (F := Ideal) X WG WU WD (ix2 r q)
      = Moe.expertOut (fun k => X (ix2 r k)) (fun k f => WG (ix3 (⟨6, by decide⟩ : Fin 8) k f)) (fun k f => WU (ix3 (⟨6, by decide⟩ : Fin 8) k f))
          (fun k f => WD (ix3 (⟨6, by decide⟩ : Fin 8) k f)) q := by
  rw [val_main_v124_apply]
  unfold Moe.expertOut
  refine Finset.sum_congr rfl fun f _ => ?_
  have el : lidx_main_v124 (ix2 r q) f = ix2 r f := funext fun a => Fin.ext (by
    match a with
    | ⟨0, _⟩ => rfl
    | ⟨1, _⟩ => rfl)
  have er : ridx_main_v124 (ix2 r q) f = ix2 f q := funext fun a => Fin.ext (by
    match a with
    | ⟨0, _⟩ => rfl
    | ⟨1, _⟩ => rfl)
  rw [el, er, h6, down6]

/-- The expert's weighted contribution: the token's combine weight for this expert times the expert's output. -/
theorem term6 (X : (⟨S2048x1024, .f32⟩ : BufTy).Contents (Elt Ideal)) (TW : (⟨S2048x2, .f32⟩ : BufTy).Contents (Elt Ideal)) (IDX : (⟨S2048x2, .i32⟩ : BufTy).Contents (Elt Ideal))
    (WG WU WD : (⟨S8x1024x1024, .f32⟩ : BufTy).Contents (Elt Ideal)) (r : Fin 2048) (q : Fin 1024) :
    val_main_v126 (F := Ideal) X TW IDX WG WU WD (ix2 r q)
      = val_main_v21 (F := Ideal) TW IDX (ix2 r (⟨6, by decide⟩ : Fin 8))
        * Moe.expertOut (fun k => X (ix2 r k)) (fun k f => WG (ix3 (⟨6, by decide⟩ : Fin 8) k f)) (fun k f => WU (ix3 (⟨6, by decide⟩ : Fin 8) k f))
            (fun k f => WD (ix3 (⟨6, by decide⟩ : Fin 8) k f)) q := by
  rw [val_main_v126_apply, val_main_v125_apply, val_main_v121_apply, y6]
  have ei : idx_main_v121 (idx_main_v125 (ix2 r q)) = ix2 r (⟨6, by decide⟩ : Fin 8) := funext fun a => Fin.ext (by
    match a with
    | ⟨0, _⟩ => rfl
    | ⟨1, _⟩ => rfl)
  rw [ei]
  rfl

end Cert.RefExpert

end
-- ==== Proof.RefExpert7.lean ====
/-
  Expert 7 in the reference program, read at an index: its three matrices cut out of the stacks, the two
  projections of a token's row, the gated hidden activation (the reference spells the logistic function as
  1 / (1 + exp(-g))), the output projection, and the product with the token's combine weight for this expert.
-/
import proofs.«104262_g66563403153436_cont_9to1_m_1368_2_alg».proof.Proof.Gen.ReferenceIdeal.Read
import proofs.«104262_g66563403153436_cont_9to1_m_1368_2_alg».proof.Proof.MoeSpec
import Idealize.ShloMosaic.Lib.IdealHost

noncomputable section

namespace Cert.RefExpert

open Cert.ReferenceIdeal Cert.ReferenceIdeal.Read Idealize.ShloMosaic Idealize.ShloMosaic.ValueIdx

/-- The expert's matrix, cut out of the stack and flattened, read at an index. -/
theorem gate7 (W : (⟨S8x1024x1024, .f32⟩ : BufTy).Contents (Elt Ideal)) (k f : Fin 1024) :
    val_main_v129 (F := Ideal) W (ix2 k f) = W (ix3 (⟨7, by decide⟩ : Fin 8) k f) := by
  rw [val_main_v129_apply, val_main_v128_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- The expert's matrix, cut out of the stack and flattened, read at an index. -/
theorem up7 (W : (⟨S8x1024x1024, .f32⟩ : BufTy).Contents (Elt Ideal)) (k f : Fin 1024) :
    val_main_v133 (F := Ideal) W (ix2 k f) = W (ix3 (⟨7, by decide⟩ : Fin 8) k f) := by
  rw [val_main_v133_apply, val_main_v132_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- The expert's matrix, cut out of the stack and flattened, read at an index. -/
theorem down7 (W : (⟨S8x1024x1024, .f32⟩ : BufTy).Contents (Elt Ideal)) (k f : Fin 1024) :
    val_main_v138 (F := Ideal) W (ix2 k f) = W (ix3 (⟨7, by decide⟩ : Fin 8) k f) := by
  rw [val_main_v138_apply, val_main_v137_apply]
  refine congrArg W (funext fun a => Fin.ext ?_)
  have hk := k.isLt
  have hf := f.isLt
  match a with
  | ⟨0, _⟩ => rfl
  | ⟨1, _⟩ => show (k.val * 1024 + f.val) / 1024 % 1024 = k.val; omega
  | ⟨2, _⟩ => show (k.val * 1024 + f.val) % 1024 = f.val; omega

/-- A token's row against a column of the expert's matrix. -/
theorem g7 (X : (⟨S2048x1024, .f32⟩ : BufTy).Contents (Elt Ideal)) (W : (⟨S8x1024x1024, .f32⟩ : BufTy).Contents (Elt Ideal)) (r : Fin 2048) (f : Fin 1024) :
    val_main_v130 (F := Ideal) X W (ix2 r f) = Moe.proj (fun k => X (ix2 r k)) (fun k f => W (ix3 (⟨7, by decide⟩ : Fin 8) k f)) f := by
  rw [val_main_v130_apply]
  unfold Moe.proj
  refine Finset.sum_congr rfl fun k _ => ?_
  have el : lidx_main_v130 (ix2 r f) k = ix2 r k := funext fun a => Fin.ext (by
    match a with
    | ⟨0, _⟩ => rfl
    | ⟨1, _⟩ => rfl)
  have er : ridx_main_v130 (ix2 r f) k = ix2 k f := funext fun a => Fin.ext (by
    match a with
    | ⟨0, _⟩ => rfl
    | ⟨1, _⟩ => rfl)
  rw [el, er, gate7]

/-- A token's row against a column of the expert's matrix. -/
theorem u7 (X : (⟨S2048x1024, .f32⟩ : BufTy).Contents (Elt Ideal)) (W : (⟨S8x1024x1024, .f32⟩ : BufTy).Contents (Elt Ideal)) (r : Fin 2048) (f : Fin 1024) :
    val_main_v134 (F := Ideal) X W (ix2 r f) = Moe.proj (fun k => X (ix2 r k)) (fun k f => W (ix3 (⟨7, by decide⟩ : Fin 8) k f)) f := by
  rw [val_main_v134_apply]
  unfold Moe.proj
  refine Finset.sum_congr rfl fun k _ => ?_
  have el : lidx_main_v134 (ix2 r f) k = ix2 r k := funext fun a => Fin.ext (by
    match a with
    | ⟨0, _⟩ => rfl
    | ⟨1, _⟩ => rfl)
  have er : ridx_main_v134 (ix2 r f) k = ix2 k f := funext fun a => Fin.ext (by
    match a with
    | ⟨0, _⟩ => rfl
    | ⟨1, _⟩ => rfl)
  rw [el, er, up7]

/-- The gated hidden activation `g · σ(g) · u`. -/
theorem h7 (X : (⟨S2048x1024, .f32⟩ : BufTy).Contents (Elt Ideal)) (WG WU : (⟨S8x1024x1024, .f32⟩ : BufTy).Contents (Elt Ideal)) (r : Fin 2048) (f : Fin 1024) :
    val_main_v135 (F := Ideal) X WG WU (ix2 r f)
      = Moe.hidden (fun k => X (ix2 r k)) (fun k f => WG (ix3 (⟨7, by decide⟩ : Fin 8) k f)) (fun k f => WU (ix3 (⟨7, by decide⟩ : Fin 8) k f)) f := by
  rw [val_main_v135_apply, val_main_v131_apply, val_main_call7_v5_apply, val_main_call7_v4_apply, val_main_call7_cst_0_apply,
    val_main_call7_v3_apply, val_main_call7_v2_apply, val_main_call7_cst_apply, val_main_call7_v1_apply, val_main_call7_v0_apply,
    g7, u7]
  simp only [Ideal.ofBits_def, Ideal.ofBits_one_f32]
  rfl

/-- The expert's output for a token. -/
theorem y7 (X : (⟨S2048x1024, .f32⟩ : BufTy).Contents (Elt Ideal)) (WG WU WD : (⟨S8x1024x1024, .f32⟩ : BufTy).Contents (Elt Ideal)) (r : Fin 2048) (q : Fin 1024) :
    val_main_v139 (F := Ideal) X WG WU WD (ix2 r q)
      = Moe.expertOut (fun k => X (ix2 r k)) (fun k f => WG (ix3 (⟨7, by decide⟩ : Fin 8) k f)) (fun k f => WU (ix3 (⟨7, by decide⟩ : Fin 8) k f))
          (fun k f => WD (ix3 (⟨7, by decide⟩ : Fin 8) k f)) q := by
  rw [val_main_v139_apply]
  unfold Moe.expertOut
  refine Finset.sum_congr rfl fun f _ => ?_
  have el : lidx_main_v139 (ix2 r q) f = ix2 r f := funext fun a => Fin.ext (by
    match a with
    | ⟨0, _⟩ => rfl
    | ⟨1, _⟩ => rfl)
  have er : ridx_main_v139 (ix2 r q) f = ix2 f q := funext fun a => Fin.ext (by
    match a with
    | ⟨0, _⟩ => rfl
    | ⟨1, _⟩ => rfl)
  rw [el, er, h7, down7]

/-- The expert's weighted contribution: the token's combine weight for this expert times the expert's output. -/
theorem term7 (X : (⟨S2048x1024, .f32⟩ : BufTy).Contents (Elt Ideal)) (TW : (⟨S2048x2, .f32⟩ : BufTy).Contents (Elt Ideal)) (IDX : (⟨S2048x2, .i32⟩ : BufTy).Contents (Elt Ideal))
    (WG WU WD : (⟨S8x1024x1024, .f32⟩ : BufTy).Contents (Elt Ideal)) (r : Fin 2048) (q : Fin 1024) :
    val_main_v141 (F := Ideal) X TW IDX WG WU WD (ix2 r q)
      = val_main_v21 (F := Ideal) TW IDX (ix2 r (⟨7, by decide⟩ : Fin 8))
        * Moe.expertOut (fun k => X (ix2 r k)) (fun k f => WG (ix3 (⟨7, by decide⟩ : Fin 8) k f)) (fun k f => WU (ix3 (⟨7, by decide⟩ : Fin 8) k f))
            (fun k f => WD (ix3 (⟨7, by decide⟩ : Fin 8) k f)) q := by
  rw [val_main_v141_apply, val_main_v140_apply, val_main_v136_apply, y7]
  have ei : idx_main_v136 (idx_main_v140 (ix2 r q)) = ix2 r (⟨7, by decide⟩ : Fin 8) := funext fun a => Fin.ext (by
    match a with
    | ⟨0, _⟩ => rfl
    | ⟨1, _⟩ => rfl)
  rw [ei]
  rfl

end Cert.RefExpert

end
-- ==== Proof.RefLayer.lean ====
/-
  The reference program's result at a token and a feature: starting from zero it adds, expert by expert in order,
  the token's combine weight for the expert times the expert's output — the running sum of `Moe.layer` over the
  eight experts. The combine weight is what the scatter-add leaves at (token, expert): the shares of the slots whose
  (non-negative) index names the expert.
-/
import proofs.«104262_g66563403153436_cont_9to1_m_1368_2_alg».proof.Proof.RefCombine
import proofs.«104262_g66563403153436_cont_9to1_m_1368_2_alg».proof.Proof.RefExpert0
import proofs.«104262_g66563403153436_cont_9to1_m_1368_2_alg».proof.Proof.RefExpert1
import proofs.«104262_g66563403153436_cont_9to1_m_1368_2_alg».proof.Proof.RefExpert2
import proofs.«104262_g66563403153436_cont_9to1_m_1368_2_alg».proof.Proof.RefExpert3
import proofs.«104262_g66563403153436_cont_9to1_m_1368_2_alg».proof.Proof.RefExpert4
import proofs.«104262_g66563403153436_cont_9to1_m_1368_2_alg».proof.Proof.RefExpert5
import proofs.«104262_g66563403153436_cont_9to1_m_1368_2_alg».proof.Proof.RefExpert6
import proofs.«104262_g66563403153436_cont_9to1_m_1368_2_alg».proof.Proof.RefExpert7

noncomputable section

namespace Cert.RefLayer

open Cert.ReferenceIdeal Cert.ReferenceIdeal.Read Idealize.ShloMosaic Idealize.ShloMosaic.ValueIdx Cert.RefExpert

/-- THE REFERENCE AT AN INDEX. -/
theorem ref_apply (X : (⟨S2048x1024, .f32⟩ : BufTy).Contents (Elt Ideal)) (TW : (⟨S2048x2, .f32⟩ : BufTy).Contents (Elt Ideal))
    (IDX : (⟨S2048x2, .i32⟩ : BufTy).Contents (Elt Ideal)) (WG WU WD : (⟨S8x1024x1024, .f32⟩ : BufTy).Contents (Elt Ideal))
    (hidx : ∀ (r : Fin 2048) (k : Fin 2), 0 ≤ (IDX (ix2 r k)).toInt) (r : Fin 2048) (q : Fin 1024) :
    val_main_v142 (F := Ideal) X TW IDX WG WU WD (ix2 r q)
      = Moe.accum (fun e => Moe.layer (fun r k => X (ix2 r k)) (fun r k => TW (ix2 r k)) (fun r k => IDX (ix2 r k))
          (fun e k f => WG (ix3 e k f)) (fun e k f => WU (ix3 e k f)) (fun e k f => WD (ix3 e k f)) r q e) 7 := by
  rw [val_main_v142_apply, val_main_v127_apply, val_main_v112_apply, val_main_v97_apply, val_main_v82_apply, val_main_v67_apply,
    val_main_v52_apply, val_main_v37_apply, val_main_v22_apply, val_main_cst_4_apply,
    term0, term1, term2, term3, term4, term5, term6, term7,
    Cert.RefCombine.combine_apply TW IDX hidx r ⟨0, by decide⟩, Cert.RefCombine.combine_apply TW IDX hidx r ⟨1, by decide⟩,
    Cert.RefCombine.combine_apply TW IDX hidx r ⟨2, by decide⟩, Cert.RefCombine.combine_apply TW IDX hidx r ⟨3, by decide⟩,
    Cert.RefCombine.combine_apply TW IDX hidx r ⟨4, by decide⟩, Cert.RefCombine.combine_apply TW IDX hidx r ⟨5, by decide⟩,
    Cert.RefCombine.combine_apply TW IDX hidx r ⟨6, by decide⟩, Cert.RefCombine.combine_apply TW IDX hidx r ⟨7, by decide⟩]
  simp only [Ideal.addf_def, Ideal.ofBits_def, Ideal.ofBits_zero_f32, zero_add, Moe.accum, Moe.layer, Moe.term, Nat.reduceLT,
    Nat.reduceAdd, ↓reduceDIte]

end Cert.RefLayer

end
-- ==== Proof.PreIdx.lean ====
/-
  The precondition's index range, read back.

  The precondition is a conjunction of "every element" tests; the last of them says that every expert index is at
  least 0 as a signed 32-bit integer. Each test is a reduction by "and" of an elementwise comparison, so a result of 1
  gives the comparison at every element.
-/
import proofs.«104262_g66563403153436_cont_9to1_m_1368_2_alg».proof.Pre_finite_inputs
import Idealize.ShloMosaic.Lib.ReduceAll
import Idealize.ShloMosaic.Lib.ValueIdx

noncomputable section

namespace Cert.PreIdx

open Idealize.ShloMosaic Idealize.ShloMosaic.ValueIdx

/-- The scalar shape has one index. -/
instance : Subsingleton Cert.Pre_finite_inputs.S_.Idx := ⟨fun a b => funext fun d => d.elim0⟩

/-- A truth value whose one-bit word is 1 is true. -/
theorem ofBool_one {b : Bool} (h : BitVec.ofBool b = 1#1) : b = true := by
  revert h
  cases b <;> decide

/-- A word that passes the signed test "at least 0" reads non-negative. -/
theorem nonneg_of_sge (w : BitVec 32) (h : IntOp.cmpi .sge w 0#32 = 1#1) : 0 ≤ w.toInt := by
  have h1 : (0#32).sle w = true := ofBool_one h
  rw [BitVec.sle] at h1
  have h2 := of_decide_eq_true h1
  rwa [BitVec.toInt_zero] at h2

/-- The index test of the precondition at element `(r, k)`. -/
theorem idx_test [Cert.Pre_finite_inputs.Facts] (a0 : FVec Ideal Cert.Pre_finite_inputs.S2048x1024 .f32) (a1 : FVec Ideal Cert.Pre_finite_inputs.S2048x2 .f32) (a2 : IVec Cert.Pre_finite_inputs.S2048x2 32)
    (a3 a4 a5 : FVec Ideal Cert.Pre_finite_inputs.S8x1024x1024 .f32)
    (h : Cert.Pre_finite_inputs.fn (F := Ideal) a0 a1 a2 a3 a4 a5 = fun _ => 1#1) (r : Fin 2048) (k : Fin 2) :
    IntOp.cmpi .sge (a2 (ValueIdx.ix2 r k)) 0#32 = 1#1 := by
  have h0 := congrFun h ValueIdx.ix0
  dsimp only [Cert.Pre_finite_inputs.fn, Cert.Pre_finite_inputs.fn_part1] at h0
  obtain ⟨-, h26⟩ := IntOp.andi_eq_one.1 h0
  have t0 := Host.reduce_andi_all _ _ _ _ _ h26 (ValueIdx.ix2 r k)
  simp only [cmpi, broadcastInDim, constantI] at t0
  exact t0

theorem idx_nonneg [Cert.Pre_finite_inputs.Facts] (a0 : FVec Ideal Cert.Pre_finite_inputs.S2048x1024 .f32) (a1 : FVec Ideal Cert.Pre_finite_inputs.S2048x2 .f32) (a2 : IVec Cert.Pre_finite_inputs.S2048x2 32)
    (a3 a4 a5 : FVec Ideal Cert.Pre_finite_inputs.S8x1024x1024 .f32)
    (h : Cert.Pre_finite_inputs.fn (F := Ideal) a0 a1 a2 a3 a4 a5 = fun _ => 1#1) (r : Fin 2048) (k : Fin 2) :
    0 ≤ (a2 (ValueIdx.ix2 r k)).toInt :=
  nonneg_of_sge _ (idx_test a0 a1 a2 a3 a4 a5 h r k)

end Cert.PreIdx

end
-- ==== Proof.lean ====
/-
  The certificate of the mixture-of-experts kernel against its reference.

  The kernel walks a grid of (token block, expert) points. At each point it computes the expert's output for the 256
  tokens of the block — `y = (g · σ(g) · u) · W_down` with `g = x · W_gate`, `u = x · W_up` — and the tokens' routing
  weight for the expert — the renormalised top-2 weights of the slots whose index is the expert — and either
  overwrites the output block with `y · c` (expert 0) or adds it to the block (experts 1 … 7). The reference
  scatter-adds the renormalised weights into a dense [token, expert] combine matrix and adds `combine · y` expert by
  expert onto a zero array. Over the extended reals the two results are the same ordered sum over the experts: the
  combine entry is the kernel's weight provided every expert index is non-negative (a negative index would wrap in
  the reference's scatter and match no expert in the kernel), which the precondition states; the zero the reference
  starts from is absorbed, and a product commutes.

  The frames: each kernel program's is the pipeline's launch theorem over the body's two cases (the run of expert 0,
  the run of a later expert) with the output block's contents carried from point to point; the reference's is its
  run with the result dropped. The idealization rewrote nothing.
-/
import proofs.«104262_g66563403153436_cont_9to1_m_1368_2_alg».proof.Defs
import proofs.«104262_g66563403153436_cont_9to1_m_1368_2_alg».proof.Proof.Gen.Kernel
import proofs.«104262_g66563403153436_cont_9to1_m_1368_2_alg».proof.Proof.Gen.KernelIdeal
import proofs.«104262_g66563403153436_cont_9to1_m_1368_2_alg».proof.Proof.Gen.ReferenceIdeal
import proofs.«104262_g66563403153436_cont_9to1_m_1368_2_alg».proof.Proof.Gen.Pre_finite_inputs
import proofs.«104262_g66563403153436_cont_9to1_m_1368_2_alg».proof.Proof.Gen.ReferenceIdeal.Run
import proofs.«104262_g66563403153436_cont_9to1_m_1368_2_alg».proof.Proof.Gen.ReferenceIdeal.Read
import proofs.«104262_g66563403153436_cont_9to1_m_1368_2_alg».proof.Proof.KernelFrame
import proofs.«104262_g66563403153436_cont_9to1_m_1368_2_alg».proof.Proof.KernelIdealResult
import proofs.«104262_g66563403153436_cont_9to1_m_1368_2_alg».proof.Proof.RefLayer
import proofs.«104262_g66563403153436_cont_9to1_m_1368_2_alg».proof.Proof.PreIdx
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the ordered sum over the experts of weight times expert output, at every token and
    feature, of arguments that agree. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v142_eq, (hagree c).1, (hagree c).2.1, (hagree c).2.2.1, (hagree c).2.2.2.1,
    (hagree c).2.2.2.2.1, (hagree c).2.2.2.2.2]
  funext i
  obtain ⟨r, q, rfl⟩ : ∃ (r : Fin 2048) (q : Fin 1024), i = ix2 r q := ⟨i 0, i 1, eq_ix2 i⟩
  rw [Cert.RefLayer.ref_apply _ _ _ _ _ _
    (fun r k => Cert.PreIdx.idx_nonneg _ _ _ _ _ _ (hpre c) r k) r q]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
